-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x800000 : Shape := ⟨2, ![4, 800000]⟩
abbrev S4x128x128 : Shape := ⟨3, ![4, 128, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x800000 : S_.BroadcastsInDim S4x800000 (![] : Fin 0 → Fin S4x800000.rank)
  reducesTo_S4x800000_S_d0_1 : S4x800000.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S4x800000 32) (main_arg2 : IVec S4x800000 32) (main_arg3 : FVec F S4x800000 .f32) (main_arg4 : FVec F S4x128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x800000 .f32 := Host.absf main_arg3
  let main_cst_0 : FVec F S_ .f32 := constant S_ .f32 0x7F800000#32
  let main_v5 : FVec F S4x800000 .f32 := broadcastInDim S4x800000 ![] bcast_S_S4x800000 main_cst_0
  let main_v6 : IVec S4x800000 1 := cmpf .olt main_v4 main_v5
  let main_c_1 : IVec S_ 1 := constantI S_ 1 1#1
  let main_v7 : IVec S_ 1 := (fun x v => Host.reduce IntOp.andi x v reducesTo_S4x800000_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S4x800000 : Shape := ⟨2, ![4, 800000]⟩
abbrev S4x128x128 : Shape := ⟨3, ![4, 128, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x50000x128 : Shape := ⟨3, ![1, 50000, 128]⟩
abbrev S4x50000x128 : Shape := ⟨3, ![4, 50000, 128]⟩
abbrev S5x50000x128 : Shape := ⟨3, ![5, 50000, 128]⟩
abbrev S1x128x128 : Shape := ⟨3, ![1, 128, 128]⟩
abbrev S5x128x128 : Shape := ⟨3, ![5, 128, 128]⟩
abbrev S1x128 : Shape := ⟨2, ![1, 128]⟩
abbrev S5x2000x128 : Shape := ⟨3, ![5, 2000, 128]⟩
abbrev S2000x128 : Shape := ⟨2, ![2000, 128]⟩
abbrev S1x2000x128 : Shape := ⟨3, ![1, 2000, 128]⟩

abbrev nBuf : Space → Nat
  | .hbm => 232
  | .vmem => 6
  | .smem => 0
  | _ => 0

abbrev hbmTy0_0 (i : Nat) : BufTy := match i % 128 with
  | 0 => ⟨S50000x128, .f32⟩
  | 1 => ⟨S4x800000, .i32⟩
  | 2 => ⟨S4x800000, .i32⟩
  | 3 => ⟨S4x800000, .f32⟩
  | 4 => ⟨S4x128x128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S1x800000, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1x800000, .i32⟩
  | 61 => ⟨S800000, .i32⟩
  | 62 => ⟨S1x800000, .i32⟩
  | 63 => ⟨S800000, .i32⟩
  | 64 => ⟨S1x800000, .f32⟩
  | 65 => ⟨S800000, .f32⟩
  | 66 => ⟨S_, .f32⟩
  | 67 => ⟨S50000, .f32⟩
  | 68 => ⟨S800000x1, .i32⟩
  | 69 => ⟨S50000, .f32⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x1, .f32⟩
  | 107 => ⟨S800000x128, .f32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S1x800000, .i32⟩
  | 114 => ⟨S800000, .i32⟩
  | 115 => ⟨S1x800000, .i32⟩
  | 116 => ⟨S800000, .i32⟩
  | 117 => ⟨S1x800000, .f32⟩
  | 118 => ⟨S800000, .f32⟩
  | 119 => ⟨S_, .f32⟩
  | 120 => ⟨S50000, .f32⟩
  | 121 => ⟨S800000x1, .i32⟩
  | 122 => ⟨S50000, .f32⟩
  | 123 => ⟨S_, .f32⟩
  | 124 => ⟨S_, .f32⟩
  | 125 => ⟨S50000, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000, .f32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x1, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S1x800000, .i32⟩
  | 39 => ⟨S800000, .i32⟩
  | 40 => ⟨S1x800000, .i32⟩
  | 41 => ⟨S800000, .i32⟩
  | 42 => ⟨S1x800000, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S_, .f32⟩
  | 50 => ⟨S50000, .f32⟩
  | 51 => ⟨S50000, .f32⟩
  | 52 => ⟨S_, .f32⟩
  | 53 => ⟨S50000, .f32⟩
  | 54 => ⟨S50000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S800000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x1, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x50000x128, .f32⟩
  | 92 => ⟨S1x50000x128, .f32⟩
  | 93 => ⟨S1x50000x128, .f32⟩
  | 94 => ⟨S1x50000x128, .f32⟩
  | 95 => ⟨S4x50000x128, .f32⟩
  | 96 => ⟨S1x50000x128, .f32⟩
  | 97 => ⟨S5x50000x128, .f32⟩
  | 98 => ⟨S1x128x128, .f32⟩
  | 99 => ⟨S5x128x128, .f32⟩
  | 100 => ⟨S5x50000x128, .bf16⟩
  | 101 => ⟨S5x128x128, .bf16⟩
  | 102 => ⟨S1x128, .f32⟩
  | 103 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5x2000x128, .bf16⟩
  | .local _ .vmem, ⟨1, _⟩ => ⟨S5x2000x128, .bf16⟩
  | .local _ .vmem, ⟨2, _⟩ => ⟨S5x128x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_call2_v0 : Ref sig .tc := ⟨.hbm, 124, rfl⟩
abbrev main_call2_v1 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_c_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_c_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_25 : Ref sig .tc := ⟨.hbm, 150, rfl⟩
abbrev main_v110 : Ref sig .tc := ⟨.hbm, 151, rfl⟩
abbrev main_v111 : Ref sig .tc := ⟨.hbm, 152, rfl⟩
abbrev main_c_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_28 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_29 : Ref sig .tc := ⟨.hbm, 176, rfl⟩
abbrev main_call3_v0 : Ref sig .tc := ⟨.hbm, 177, rfl⟩
abbrev main_call3_v1 : Ref sig .tc := ⟨.hbm, 178, rfl⟩
abbrev main_v132 : Ref sig .tc := ⟨.hbm, 179, rfl⟩
abbrev main_cst_30 : Ref sig .tc := ⟨.hbm, 180, rfl⟩
abbrev main_v133 : Ref sig .tc := ⟨.hbm, 181, rfl⟩
abbrev main_v134 : Ref sig .tc := ⟨.hbm, 182, rfl⟩
abbrev main_c_31 : Ref sig .tc := ⟨.hbm, 183, rfl⟩
abbrev main_v135 : Ref sig .tc := ⟨.hbm, 184, rfl⟩
abbrev main_v136 : Ref sig .tc := ⟨.hbm, 185, rfl⟩
abbrev main_c_32 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_33 : Ref sig .tc := ⟨.hbm, 193, rfl⟩
abbrev main_v143 : Ref sig .tc := ⟨.hbm, 194, rfl⟩
abbrev main_v144 : Ref sig .tc := ⟨.hbm, 195, rfl⟩
abbrev main_c_34 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_35 : Ref sig .tc := ⟨.hbm, 203, rfl⟩
abbrev main_v151 : Ref sig .tc := ⟨.hbm, 204, rfl⟩
abbrev main_v152 : Ref sig .tc := ⟨.hbm, 205, rfl⟩
abbrev main_c_36 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_37 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4x800000_S1x800000_0_0 : S4x800000.Slices ![0, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x800000_S1x800000_1_0 : S4x800000.Slices ![1, 0] S1x800000
  slices_S4x800000_S1x800000_2_0 : S4x800000.Slices ![2, 0] S1x800000
  slices_S4x800000_S1x800000_3_0 : S4x800000.Slices ![3, 0] S1x800000
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  concatenates_S1x50000x128_S4x50000x128_S5x50000x128_d0 : Shape.Concatenates [S1x50000x128, S4x50000x128] S5x50000x128 0
  bcast_S128x128_S1x128x128_1_2 : S128x128.BroadcastsInDim S1x128x128 (![1, 2] : Fin 2 → Fin S1x128x128.rank)
  concatenates_S1x128x128_S4x128x128_S5x128x128_d0 : Shape.Concatenates [S1x128x128, S4x128x128] S5x128x128 0
  bitsLt_bf16_f32 : FTy.bits .bf16 < FTy.bits .f32
  shapeCasts_S128_S1x128 : S128.ShapeCasts S1x128
  inb_S5x2000x128_S1x2000x128_0_0_0 : ∀ a, (![0, 0, 0] : Fin 3 → Nat) a + S1x2000x128.size a ≤ S5x2000x128.size a
  h_S1x2000x128 : 0 < S1x2000x128.numel
  shapeCasts_S1x2000x128_S2000x128 : S1x2000x128.ShapeCasts S2000x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x2000x128_S1x2000x128_1_0_0 : ∀ a, (![1, 0, 0] : Fin 3 → Nat) a + S1x2000x128.size a ≤ S5x2000x128.size a
  inb_S5x128x128_S1x128x128_1_0_0 : ∀ a, (![1, 0, 0] : Fin 3 → Nat) a + S1x128x128.size a ≤ S5x128x128.size a
  inb_S5x2000x128_S1x2000x128_2_0_0 : ∀ a, (![2, 0, 0] : Fin 3 → Nat) a + S1x2000x128.size a ≤ S5x2000x128.size a
  inb_S5x128x128_S1x128x128_2_0_0 : ∀ a, (![2, 0, 0] : Fin 3 → Nat) a + S1x128x128.size a ≤ S5x128x128.size a
  inb_S5x2000x128_S1x2000x128_3_0_0 : ∀ a, (![3, 0, 0] : Fin 3 → Nat) a + S1x2000x128.size a ≤ S5x2000x128.size a
  inb_S5x128x128_S1x128x128_3_0_0 : ∀ a, (![3, 0, 0] : Fin 3 → Nat) a + S1x128x128.size a ≤ S5x128x128.size a
  inb_S5x2000x128_S1x2000x128_4_0_0 : ∀ a, (![4, 0, 0] : Fin 3 → Nat) a + S1x2000x128.size a ≤ S5x2000x128.size a
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x2000x128.size a ≤ S5x50000x128.size a
  hwx0_0 : ∀ i : grid0.Coords, EltTy.bits .bf16 = 32 ∨ (Rect.block (s := S5x50000x128) S5x2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128x128.size a ≤ S5x128x128.size a
  hwx0_1 : ∀ i : grid0.Coords, EltTy.bits .bf16 = 32 ∨ (Rect.block (s := S5x128x128) S5x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v173) S5x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v174) S5x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v175) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v176) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S4x800000 : Shape := ⟨2, ![4, 800000]⟩
abbrev S4x128x128 : Shape := ⟨3, ![4, 128, 128]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩

abbrev nBuf : Space → Nat
  | .hbm => 239
  | .vmem => 0
  | .smem => 0
  | _ => 0

abbrev hbmTy0_0 (i : Nat) : BufTy := match i % 128 with
  | 0 => ⟨S50000x128, .f32⟩
  | 1 => ⟨S4x800000, .i32⟩
  | 2 => ⟨S4x800000, .i32⟩
  | 3 => ⟨S4x800000, .f32⟩
  | 4 => ⟨S4x128x128, .f32⟩
  | 5 => ⟨S128x128, .f32⟩
  | 6 => ⟨S128, .f32⟩
  | 7 => ⟨S50000x128, .f32⟩
  | 8 => ⟨S1x128, .f32⟩
  | 9 => ⟨S50000x128, .f32⟩
  | 10 => ⟨S50000x128, .f32⟩
  | 11 => ⟨S1x800000, .i32⟩
  | 12 => ⟨S800000, .i32⟩
  | 13 => ⟨S1x800000, .i32⟩
  | 14 => ⟨S800000, .i32⟩
  | 15 => ⟨S1x800000, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1x128x128, .f32⟩
  | 65 => ⟨S128x128, .f32⟩
  | 66 => ⟨S50000x128, .f32⟩
  | 67 => ⟨S50000x128, .f32⟩
  | 68 => ⟨S1x800000, .i32⟩
  | 69 => ⟨S800000, .i32⟩
  | 70 => ⟨S1x800000, .i32⟩
  | 71 => ⟨S800000, .i32⟩
  | 72 => ⟨S1x800000, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S1x128x128, .f32⟩
  | 122 => ⟨S128x128, .f32⟩
  | 123 => ⟨S50000x128, .f32⟩
  | 124 => ⟨S50000x128, .f32⟩
  | 125 => ⟨S1x800000, .i32⟩
  | 126 => ⟨S800000, .i32⟩
  | 127 => ⟨S1x800000, .i32⟩
  | _ => ⟨S50000x128, .f32⟩

abbrev hbmTy0_1 (i : Nat) : BufTy := match i % 128 with
  | 0 => ⟨S800000, .i32⟩
  | 1 => ⟨S1x800000, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S_, .f32⟩
  | 9 => ⟨S50000, .f32⟩
  | 10 => ⟨S50000, .f32⟩
  | 11 => ⟨S_, .f32⟩
  | 12 => ⟨S50000, .f32⟩
  | 13 => ⟨S50000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S800000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S1x128x128, .f32⟩
  | 51 => ⟨S128x128, .f32⟩
  | 52 => ⟨S50000x128, .f32⟩
  | 53 => ⟨S50000x128, .f32⟩
  | 54 => ⟨S1x800000, .i32⟩
  | 55 => ⟨S800000, .i32⟩
  | 56 => ⟨S1x800000, .i32⟩
  | 57 => ⟨S800000, .i32⟩
  | 58 => ⟨S1x800000, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S1x128x128, .f32⟩
  | 108 => ⟨S128x128, .f32⟩
  | 109 => ⟨S50000x128, .f32⟩
  | 110 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_call1_v0 : Ref sig .tc := ⟨.hbm, 79, rfl⟩
abbrev main_call1_v1 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_18 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_19 : Ref sig .tc := ⟨.hbm, 135, rfl⟩
abbrev main_call2_v0 : Ref sig .tc := ⟨.hbm, 136, rfl⟩
abbrev main_call2_v1 : Ref sig .tc := ⟨.hbm, 137, rfl⟩
abbrev main_v103 : Ref sig .tc := ⟨.hbm, 138, rfl⟩
abbrev main_cst_20 : Ref sig .tc := ⟨.hbm, 139, rfl⟩
abbrev main_v104 : Ref sig .tc := ⟨.hbm, 140, rfl⟩
abbrev main_v105 : Ref sig .tc := ⟨.hbm, 141, rfl⟩
abbrev main_c_21 : Ref sig .tc := ⟨.hbm, 142, rfl⟩
abbrev main_v106 : Ref sig .tc := ⟨.hbm, 143, rfl⟩
abbrev main_v107 : Ref sig .tc := ⟨.hbm, 144, rfl⟩
abbrev main_c_22 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_23 : Ref sig .tc := ⟨.hbm, 152, rfl⟩
abbrev main_v114 : Ref sig .tc := ⟨.hbm, 153, rfl⟩
abbrev main_v115 : Ref sig .tc := ⟨.hbm, 154, rfl⟩
abbrev main_c_24 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_c_25 : Ref sig .tc := ⟨.hbm, 163, rfl⟩
abbrev main_v123 : Ref sig .tc := ⟨.hbm, 164, rfl⟩
abbrev main_v124 : Ref sig .tc := ⟨.hbm, 165, rfl⟩
abbrev main_c_26 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_27 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_28 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_29 : Ref sig .tc := ⟨.hbm, 192, rfl⟩
abbrev main_call3_v0 : Ref sig .tc := ⟨.hbm, 193, rfl⟩
abbrev main_call3_v1 : Ref sig .tc := ⟨.hbm, 194, rfl⟩
abbrev main_v148 : Ref sig .tc := ⟨.hbm, 195, rfl⟩
abbrev main_cst_30 : Ref sig .tc := ⟨.hbm, 196, rfl⟩
abbrev main_v149 : Ref sig .tc := ⟨.hbm, 197, rfl⟩
abbrev main_v150 : Ref sig .tc := ⟨.hbm, 198, rfl⟩
abbrev main_c_31 : Ref sig .tc := ⟨.hbm, 199, rfl⟩
abbrev main_v151 : Ref sig .tc := ⟨.hbm, 200, rfl⟩
abbrev main_v152 : Ref sig .tc := ⟨.hbm, 201, rfl⟩
abbrev main_c_32 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_c_33 : Ref sig .tc := ⟨.hbm, 209, rfl⟩
abbrev main_v159 : Ref sig .tc := ⟨.hbm, 210, rfl⟩
abbrev main_v160 : Ref sig .tc := ⟨.hbm, 211, rfl⟩
abbrev main_c_34 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_c_35 : Ref sig .tc := ⟨.hbm, 220, rfl⟩
abbrev main_v168 : Ref sig .tc := ⟨.hbm, 221, rfl⟩
abbrev main_v169 : Ref sig .tc := ⟨.hbm, 222, rfl⟩
abbrev main_c_36 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_cst_37 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x800000_S1x800000_0_0 : S4x800000.Slices ![0, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x800000_S1x800000_1_0 : S4x800000.Slices ![1, 0] S1x800000
  slices_S4x128x128_S1x128x128_1_0_0 : S4x128x128.Slices ![1, 0, 0] S1x128x128
  slices_S4x800000_S1x800000_2_0 : S4x800000.Slices ![2, 0] S1x800000
  slices_S4x128x128_S1x128x128_2_0_0 : S4x128x128.Slices ![2, 0, 0] S1x128x128
  slices_S4x800000_S1x800000_3_0 : S4x800000.Slices ![3, 0] S1x800000
  slices_S4x128x128_S1x128x128_3_0_0 : S4x128x128.Slices ![3, 0, 0] S1x128x128
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.HostVBits.lean ====
/-
  What the launch finds: each buffer of a core after the host operations that precede the launch — the slices of the
  edge tables, the four relations' propagated features, their stacking with the node features, the stacking of the
  weights, the narrowing of both stacks and the bias as a one-row matrix — applied in order to the launch memory.
-/
import proofs.«124388_j45827301048843_1_alg».proof.Proof.Gen.Kernel.Launch
import Idealize.ShloMosaic.Lib.StableHlo.Run

noncomputable section

namespace Cert.Kernel.Hand

open Idealize.ShloMosaic Idealize.ShloMosaic.TcCoe Idealize.SL.Sem Cert.Kernel Cert.Kernel.Gen

variable {F : FTy → Type} [FloatOps F]

/-- Core c's buffers when the launch is reached: the nine stretches of host operations, in order, applied to the
    memory the program starts from. -/
abbrev V (m : (ℓ : Loc nD τ sig) → Buf (Elt F) ℓ) (c : Dev nD) (b : Ref sig .tc) : Buf (Elt F) ((c : Thread nD τ).loc b) :=
  StableHlo.after
    (List.flatten [hostOps0, hostOps0_1, hostOps0_2, hostOps0_3, hostOps0_4, hostOps0_5, hostOps0_6, hostOps0_7, hostOps0_8])
    (fun b => m (c, b)) b

end Cert.Kernel.Hand

end
-- ==== Proof.BodyOutBits.lean ====
/-
  What one run of the kernel body leaves in the output block, as a function of the three input blocks.

  The body reads plane s of the staged feature stack and plane s of the staged weight stack, s = 0 … 4, and the bias
  row, each through a rectangle that starts at (s, 0, 0) and spans one whole plane; it stores once, through the
  rectangle that spans the whole output block, the value the program names `k0_pay1`: the five products added onto
  zero, then the bias row repeated down the rows.
-/
import proofs.«124388_j45827301048843_1_alg».proof.Proof.Gen.Kernel.Skeleton
import Idealize.ShloMosaic.Lib.Pipeline.FrameBody

noncomputable section

namespace Cert.Kernel.Hand

open Idealize.ShloMosaic Idealize.ShloMosaic.TcCoe Idealize.SL.Sem Cert.Kernel Cert.Kernel.Gen

variable {F : FTy → Type} [FloatOps F]

/-- Plane s of the staged feature stack [5, 2000, 128]: the rectangle at (s, 0, 0) of extent [1, 2000, 128]. -/
abbrev rS0 : Rect S5x2000x128 := Rect.unit (s := S5x2000x128) ![0, 0, 0] S1x2000x128.size inb_S5x2000x128_S1x2000x128_0_0_0
abbrev rS1 : Rect S5x2000x128 := Rect.unit (s := S5x2000x128) ![1, 0, 0] S1x2000x128.size inb_S5x2000x128_S1x2000x128_1_0_0
abbrev rS2 : Rect S5x2000x128 := Rect.unit (s := S5x2000x128) ![2, 0, 0] S1x2000x128.size inb_S5x2000x128_S1x2000x128_2_0_0
abbrev rS3 : Rect S5x2000x128 := Rect.unit (s := S5x2000x128) ![3, 0, 0] S1x2000x128.size inb_S5x2000x128_S1x2000x128_3_0_0
abbrev rS4 : Rect S5x2000x128 := Rect.unit (s := S5x2000x128) ![4, 0, 0] S1x2000x128.size inb_S5x2000x128_S1x2000x128_4_0_0
/-- Plane s of the staged weight stack [5, 128, 128]. -/
abbrev rW0 : Rect S5x128x128 := Rect.unit (s := S5x128x128) ![0, 0, 0] S1x128x128.size inb_S5x128x128_S1x128x128_0_0_0
abbrev rW1 : Rect S5x128x128 := Rect.unit (s := S5x128x128) ![1, 0, 0] S1x128x128.size inb_S5x128x128_S1x128x128_1_0_0
abbrev rW2 : Rect S5x128x128 := Rect.unit (s := S5x128x128) ![2, 0, 0] S1x128x128.size inb_S5x128x128_S1x128x128_2_0_0
abbrev rW3 : Rect S5x128x128 := Rect.unit (s := S5x128x128) ![3, 0, 0] S1x128x128.size inb_S5x128x128_S1x128x128_3_0_0
abbrev rW4 : Rect S5x128x128 := Rect.unit (s := S5x128x128) ![4, 0, 0] S1x128x128.size inb_S5x128x128_S1x128x128_4_0_0
/-- The whole bias row [1, 128] and the whole output block [2000, 128]. -/
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The value the body stores, from the three input blocks: the program's payload of the planes it loads. -/
def stored (x0 : Vec F S5x2000x128 .bf16) (x1 : Vec F S5x128x128 .bf16) (x2 : Vec F S1x128 .f32) : Vec F S2000x128 .f32 :=
  k0_pay1
    (k0_pay2 (View.ld x0 rS0) (View.ld x1 rW0) (View.ld x0 rS1) (View.ld x1 rW1) (View.ld x0 rS2) (View.ld x1 rW2)
      (View.ld x0 rS3) (View.ld x1 rW3))
    (k0_pay3 (View.ld x0 rS4)) (View.ld x1 rW4) (View.ld x2 rB)

/-- The output block after the body: its one store, through the rectangle that spans the block. -/
def out0_3 (x0 : Vec F S5x2000x128 .bf16) (x1 : Vec F S5x128x128 .bf16) (x2 : Vec F S1x128 .f32) : Vec F S2000x128 .f32 :=
  View.canon [⟨rO, stored x0 x1 x2⟩]

end Cert.Kernel.Hand

end
-- ==== Proof.FrameBits.lean ====
/-
  The frame of the program: it runs to the end without fault and leaves its seven argument arrays as it found them.

  The program is nine stretches of host operations followed by one launch over a grid of 25 row blocks. No host
  operation writes an argument array, and the launch writes only its output array, which is none of the seven; so
  each argument ends with the contents it started with. Along the way the file fixes what the launch does: window w's
  block at grid point t is read off the array the launch finds; an input window's staging buffer holds that block
  whenever the body runs (fetched at that point, or carried over from the point before where the block index did not
  move); the body reads the three input blocks, stores once through the rectangle spanning the output block, and so
  leaves the output buffer at the canonical contents of that one store.
-/
import proofs.«124388_j45827301048843_1_alg».proof.Proof.Gen.Kernel.Launch
import proofs.«124388_j45827301048843_1_alg».proof.Proof.Gen.Kernel.Skeleton
import proofs.«124388_j45827301048843_1_alg».proof.Proof.Gen.Kernel.Points
import proofs.«124388_j45827301048843_1_alg».proof.Proof.HostVBits
import proofs.«124388_j45827301048843_1_alg».proof.Proof.BodyOutBits
import Idealize.ShloMosaic.Lib.Pipeline.FrameBody
import Idealize.ShloMosaic.Lib.Ring
import Idealize.ShloMosaic.Lib.Tactic

-- membership in a rectangle of 2000 x 128 cells is checked coordinate by coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its launch -/

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps0_7_fresh : (hostOps0_7 : List (HloOp τ sig (Elt F))).Forall fun op => op.fresh = ∅ := by
  simp only [List.Forall]; repeat' constructor
/-- No operation of this stretch allocates a buffer. -/
theorem hostOps0_8_fresh : (hostOps0_8 : List (HloOp τ sig (Elt F))).Forall fun op => op.fresh = ∅ := by
  simp only [List.Forall]; repeat' constructor

/-- The program is its nine stretches of host operations, in order, then the launch; the launch therefore finds
    each buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- Every host operation writes a buffer other than argument 0, so the launch finds that argument as the program started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 1, so the launch finds that argument as the program started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 2, so the launch finds that argument as the program started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 3, so the launch finds that argument as the program started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 4, so the launch finds that argument as the program started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 5, so the launch finds that argument as the program started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 6, so the launch finds that argument as the program started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at grid point t: the cells of its array, as the launch finds it, that the window's index map
    selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whenever the body runs, input window 0's staging buffer holds the window's block at that point: either it was
    fetched there, or the block index is the one of the point before and the body left the buffer untouched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Whenever the body runs, input window 1's staging buffer holds the window's block at that point: either it was
    fetched there, or the block index is the one of the point before and the body left the buffer untouched. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Whenever the body runs, input window 2's staging buffer holds the window's block at that point: either it was
    fetched there, or the block index is the one of the point before and the body left the buffer untouched. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run of the launch to the arguments -/

/-- The launch's run leaves every buffer that is no window's array as the launch found it; none of the seven
    arguments is a window's array, and the launch found each as the program started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## What the body leaves in the output block -/

/-- The one store spans the whole output block, so every cell of the block is in it. -/
theorem cover0_3 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-! ## The body's triple -/

set_option maxHeartbeats 1000000 in
/-- The body, given the three input buffers at contents x0, x1, x2 and the output buffer at anything, runs to its
    end with the inputs as they were and the output at `out0_3 x0 x1 x2`: it only loads from the inputs, loads the
    output once without using the value, and stores once, through the rectangle spanning the output block. -/
theorem sound_kernel (c : Dev nD) (E : Set ℕ) (i : grid0.Coords) (arg1 : Memref sig .tc .vmem S5x2000x128 .bf16) (harg1 : arg1.IsWhole) (arg2 : Memref sig .tc .vmem S5x128x128 .bf16) (harg2 : arg2.IsWhole) (arg3 : Memref sig .tc .vmem S1x128 .f32) (harg3 : arg3.IsWhole) (arg4 : Memref sig .tc .vmem S2000x128 .f32) (harg4 : arg4.IsWhole)
    (x0 : Vec F S5x2000x128 .bf16) (x1 : Vec F S5x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fused_matmul_kernel i arg1 harg1 arg2 harg2 arg3 harg3 arg4 harg4) K := by
  simp only [cc0__fused_matmul_kernel_eq_skeleton]; unfold cc0__fused_matmul_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- For core c: each window's array is what the launch finds; after the body at point t an input's staging buffer
    still holds its block and the output's holds `out0_3` of the three input blocks; nothing else is touched, nothing
    is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The arrays of the proof data are the ones the launch finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's staging buffer holds its block whenever the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is given at point t: the invariant, what is owed, and the four staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At every point the inputs' buffers hold their blocks, so the body's triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with all counters at zero, every fair execution of the program ends, and it ends with each
    window's array at what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its seven arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.HostV.lean ====
/-
  What the launch finds: each buffer of a core after the host operations that precede the launch — the slices of the
  edge tables, the four relations' propagated features, their stacking with the node features, the stacking of the
  weights, the narrowing of both stacks and the bias as a one-row matrix — applied in order to the launch memory.
-/
import proofs.«124388_j45827301048843_1_alg».proof.Proof.Gen.KernelIdeal.Launch
import Idealize.ShloMosaic.Lib.StableHlo.Run

noncomputable section

namespace Cert.KernelIdeal.Hand

open Idealize.ShloMosaic Idealize.ShloMosaic.TcCoe Idealize.SL.Sem Cert.KernelIdeal Cert.KernelIdeal.Gen

variable {F : FTy → Type} [FloatOps F]

/-- Core c's buffers when the launch is reached: the nine stretches of host operations, in order, applied to the
    memory the program starts from. -/
abbrev V (m : (ℓ : Loc nD τ sig) → Buf (Elt F) ℓ) (c : Dev nD) (b : Ref sig .tc) : Buf (Elt F) ((c : Thread nD τ).loc b) :=
  StableHlo.after
    (List.flatten [hostOps0, hostOps0_1, hostOps0_2, hostOps0_3, hostOps0_4, hostOps0_5, hostOps0_6, hostOps0_7, hostOps0_8])
    (fun b => m (c, b)) b

end Cert.KernelIdeal.Hand

end
-- ==== Proof.BodyOut.lean ====
/-
  What one run of the kernel body leaves in the output block, as a function of the three input blocks.

  The body reads plane s of the staged feature stack and plane s of the staged weight stack, s = 0 … 4, and the bias
  row, each through a rectangle that starts at (s, 0, 0) and spans one whole plane; it stores once, through the
  rectangle that spans the whole output block, the value the program names `k0_pay1`: the five products added onto
  zero, then the bias row repeated down the rows.
-/
import proofs.«124388_j45827301048843_1_alg».proof.Proof.Gen.KernelIdeal.Skeleton
import Idealize.ShloMosaic.Lib.Pipeline.FrameBody

noncomputable section

namespace Cert.KernelIdeal.Hand

open Idealize.ShloMosaic Idealize.ShloMosaic.TcCoe Idealize.SL.Sem Cert.KernelIdeal Cert.KernelIdeal.Gen

variable {F : FTy → Type} [FloatOps F]

/-- Plane s of the staged feature stack [5, 2000, 128]: the rectangle at (s, 0, 0) of extent [1, 2000, 128]. -/
abbrev rS0 : Rect S5x2000x128 := Rect.unit (s := S5x2000x128) ![0, 0, 0] S1x2000x128.size inb_S5x2000x128_S1x2000x128_0_0_0
abbrev rS1 : Rect S5x2000x128 := Rect.unit (s := S5x2000x128) ![1, 0, 0] S1x2000x128.size inb_S5x2000x128_S1x2000x128_1_0_0
abbrev rS2 : Rect S5x2000x128 := Rect.unit (s := S5x2000x128) ![2, 0, 0] S1x2000x128.size inb_S5x2000x128_S1x2000x128_2_0_0
abbrev rS3 : Rect S5x2000x128 := Rect.unit (s := S5x2000x128) ![3, 0, 0] S1x2000x128.size inb_S5x2000x128_S1x2000x128_3_0_0
abbrev rS4 : Rect S5x2000x128 := Rect.unit (s := S5x2000x128) ![4, 0, 0] S1x2000x128.size inb_S5x2000x128_S1x2000x128_4_0_0
/-- Plane s of the staged weight stack [5, 128, 128]. -/
abbrev rW0 : Rect S5x128x128 := Rect.unit (s := S5x128x128) ![0, 0, 0] S1x128x128.size inb_S5x128x128_S1x128x128_0_0_0
abbrev rW1 : Rect S5x128x128 := Rect.unit (s := S5x128x128) ![1, 0, 0] S1x128x128.size inb_S5x128x128_S1x128x128_1_0_0
abbrev rW2 : Rect S5x128x128 := Rect.unit (s := S5x128x128) ![2, 0, 0] S1x128x128.size inb_S5x128x128_S1x128x128_2_0_0
abbrev rW3 : Rect S5x128x128 := Rect.unit (s := S5x128x128) ![3, 0, 0] S1x128x128.size inb_S5x128x128_S1x128x128_3_0_0
abbrev rW4 : Rect S5x128x128 := Rect.unit (s := S5x128x128) ![4, 0, 0] S1x128x128.size inb_S5x128x128_S1x128x128_4_0_0
/-- The whole bias row [1, 128] and the whole output block [2000, 128]. -/
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The value the body stores, from the three input blocks: the program's payload of the planes it loads. -/
def stored (x0 : Vec F S5x2000x128 .bf16) (x1 : Vec F S5x128x128 .bf16) (x2 : Vec F S1x128 .f32) : Vec F S2000x128 .f32 :=
  k0_pay1
    (k0_pay2 (View.ld x0 rS0) (View.ld x1 rW0) (View.ld x0 rS1) (View.ld x1 rW1) (View.ld x0 rS2) (View.ld x1 rW2)
      (View.ld x0 rS3) (View.ld x1 rW3))
    (k0_pay3 (View.ld x0 rS4)) (View.ld x1 rW4) (View.ld x2 rB)

/-- The output block after the body: its one store, through the rectangle that spans the block. -/
def out0_3 (x0 : Vec F S5x2000x128 .bf16) (x1 : Vec F S5x128x128 .bf16) (x2 : Vec F S1x128 .f32) : Vec F S2000x128 .f32 :=
  View.canon [⟨rO, stored x0 x1 x2⟩]

end Cert.KernelIdeal.Hand

end
-- ==== Proof.FrameIdeal.lean ====
/-
  The frame of the program: it runs to the end without fault and leaves its seven argument arrays as it found them.

  The program is nine stretches of host operations followed by one launch over a grid of 25 row blocks. No host
  operation writes an argument array, and the launch writes only its output array, which is none of the seven; so
  each argument ends with the contents it started with. Along the way the file fixes what the launch does: window w's
  block at grid point t is read off the array the launch finds; an input window's staging buffer holds that block
  whenever the body runs (fetched at that point, or carried over from the point before where the block index did not
  move); the body reads the three input blocks, stores once through the rectangle spanning the output block, and so
  leaves the output buffer at the canonical contents of that one store.
-/
import proofs.«124388_j45827301048843_1_alg».proof.Proof.Gen.KernelIdeal.Launch
import proofs.«124388_j45827301048843_1_alg».proof.Proof.Gen.KernelIdeal.Skeleton
import proofs.«124388_j45827301048843_1_alg».proof.Proof.Gen.KernelIdeal.Points
import proofs.«124388_j45827301048843_1_alg».proof.Proof.HostV
import proofs.«124388_j45827301048843_1_alg».proof.Proof.BodyOut
import Idealize.ShloMosaic.Lib.Pipeline.FrameBody
import Idealize.ShloMosaic.Lib.Ring
import Idealize.ShloMosaic.Lib.Tactic

-- membership in a rectangle of 2000 x 128 cells is checked coordinate by coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its launch -/

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps0_7_fresh : (hostOps0_7 : List (HloOp τ sig (Elt F))).Forall fun op => op.fresh = ∅ := by
  simp only [List.Forall]; repeat' constructor
/-- No operation of this stretch allocates a buffer. -/
theorem hostOps0_8_fresh : (hostOps0_8 : List (HloOp τ sig (Elt F))).Forall fun op => op.fresh = ∅ := by
  simp only [List.Forall]; repeat' constructor

/-- The program is its nine stretches of host operations, in order, then the launch; the launch therefore finds
    each buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- Every host operation writes a buffer other than argument 0, so the launch finds that argument as the program started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 1, so the launch finds that argument as the program started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 2, so the launch finds that argument as the program started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 3, so the launch finds that argument as the program started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 4, so the launch finds that argument as the program started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 5, so the launch finds that argument as the program started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a buffer other than argument 6, so the launch finds that argument as the program started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at grid point t: the cells of its array, as the launch finds it, that the window's index map
    selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whenever the body runs, input window 0's staging buffer holds the window's block at that point: either it was
    fetched there, or the block index is the one of the point before and the body left the buffer untouched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Whenever the body runs, input window 1's staging buffer holds the window's block at that point: either it was
    fetched there, or the block index is the one of the point before and the body left the buffer untouched. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Whenever the body runs, input window 2's staging buffer holds the window's block at that point: either it was
    fetched there, or the block index is the one of the point before and the body left the buffer untouched. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run of the launch to the arguments -/

/-- The launch's run leaves every buffer that is no window's array as the launch found it; none of the seven
    arguments is a window's array, and the launch found each as the program started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## What the body leaves in the output block -/

/-- The one store spans the whole output block, so every cell of the block is in it. -/
theorem cover0_3 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-! ## The body's triple -/

set_option maxHeartbeats 1000000 in
/-- The body, given the three input buffers at contents x0, x1, x2 and the output buffer at anything, runs to its
    end with the inputs as they were and the output at `out0_3 x0 x1 x2`: it only loads from the inputs, loads the
    output once without using the value, and stores once, through the rectangle spanning the output block. -/
theorem sound_kernel (c : Dev nD) (E : Set ℕ) (i : grid0.Coords) (arg1 : Memref sig .tc .vmem S5x2000x128 .bf16) (harg1 : arg1.IsWhole) (arg2 : Memref sig .tc .vmem S5x128x128 .bf16) (harg2 : arg2.IsWhole) (arg3 : Memref sig .tc .vmem S1x128 .f32) (harg3 : arg3.IsWhole) (arg4 : Memref sig .tc .vmem S2000x128 .f32) (harg4 : arg4.IsWhole)
    (x0 : Vec F S5x2000x128 .bf16) (x1 : Vec F S5x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fused_matmul_kernel i arg1 harg1 arg2 harg2 arg3 harg3 arg4 harg4) K := by
  simp only [cc0__fused_matmul_kernel_eq_skeleton]; unfold cc0__fused_matmul_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- For core c: each window's array is what the launch finds; after the body at point t an input's staging buffer
    still holds its block and the output's holds `out0_3` of the three input blocks; nothing else is touched, nothing
    is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The arrays of the proof data are the ones the launch finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's staging buffer holds its block whenever the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is given at point t: the invariant, what is owed, and the four staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At every point the inputs' buffers hold their blocks, so the body's triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with all counters at zero, every fair execution of the program ends, and it ends with each
    window's array at what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its seven arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.LibWholeMat.lean ====
/-
  Whole-matrix functions over the extended reals, and the kernel's and the host's operations read as them.

  For any extents: the zero matrix Z, the matrix product mm (entry (r, c) the sum over k of a (r, k) · w (k, c)), plane k
  of a stack of matrices, row k of a matrix repeated down M rows (rowb), a vector repeated down M rows (vecb). A product
  with the zero matrix on either side is the zero matrix, with no finiteness assumed: over the extended reals x · 0 = 0
  for every x, the infinities included.
  Then each spelling of these in a printed program, as an equation between whole arrays (no index in sight), stated for
  any extents so that it applies to a printed operation by unification:
    • a vector unit's plain matrix product into the zero accumulator, its operands narrowed to bf16 or already bf16, and
      the host's plain dot_general, are mm (a change of float format is the identity on extended reals; the dimension
      record is any record equal to the plain one, which a printed plain record is by rfl);
    • a [1, M, N] block cut from a stack at offsets (o, 0, 0) and viewed as [M, N] is plane o;
    • a [1, N] block cut from a matrix at offsets (o, 0), broadcast to [M, N] by one broadcast (a kernel), or flattened
      and broadcast twice through [1, N] (the host), is rowb; a vector viewed as [1, N] and broadcast, or broadcast twice,
      is vecb; a vector flattened to [N] and viewed again as [1, N] is itself;
    • the dense all-zero constant, a kernel's splat of the zero word and the host's broadcast of the zero scalar are Z;
      the word 0x3F800000 is the real number one;
    • the host's 1 / (1 + exp (−x)), its ones splats of that word, is the logistic function, and its tanh the kernel's.
-/
import Idealize.ShloMosaic.Lib.ValueIdx
import Idealize.ShloMosaic.Lib.ValueLayout
import Idealize.ShloMosaic.Lib.Pipeline.Value
import Idealize.ShloMosaic.PureOps.Ideal.Laws
import proofs.«124388_j45827301048843_1_alg».proof.Proof.LibPlainDot

noncomputable section

open scoped BigOperators

namespace Cert.WholeMat

open Idealize.ShloMosaic Idealize.ShloMosaic.ValueIdx

/-- An M × N matrix of extended reals. -/
abbrev Mat (M N : Nat) : Type := FVec Ideal ⟨2, ![M, N]⟩ .f32

variable {M K N R : Nat}

/-- The zero matrix. -/
def Z (M N : Nat) : Mat M N := fun _ => 0

/-- The matrix product: entry (r, c) is the sum over k of a (r, k) · w (k, c). -/
def mm (a : Mat M K) (w : Mat K N) : Mat M N :=
  fun i => ∑ k : Fin K, a (ix2 ⟨(i 0).val, idx2_lt0 i⟩ k) * w (ix2 k ⟨(i 1).val, idx2_lt1 i⟩)

theorem mm_apply (a : Mat M K) (w : Mat K N) (r : Fin M) (c : Fin N) :
    mm a w (ix2 r c) = ∑ k : Fin K, a (ix2 r k) * w (ix2 k c) := rfl

/-- Plane k of a stack of R matrices. -/
def plane (W : FVec Ideal ⟨3, ![R, M, N]⟩ .f32) (k : Fin R) : Mat M N :=
  fun i => W (ix3 k ⟨(i 0).val, idx2_lt0 i⟩ ⟨(i 1).val, idx2_lt1 i⟩)

theorem plane_apply (W : FVec Ideal ⟨3, ![R, M, N]⟩ .f32) (k : Fin R) (r : Fin M) (c : Fin N) :
    plane W k (ix2 r c) = W (ix3 k r c) := rfl

/-- Row k of an R × N matrix, repeated down M rows. -/
def rowb (b : Mat R N) (k : Fin R) (M : Nat) : Mat M N := fun i => b (ix2 k ⟨(i 1).val, idx2_lt1 i⟩)

theorem rowb_apply (b : Mat R N) (k : Fin R) (r : Fin M) (c : Fin N) : rowb b k M (ix2 r c) = b (ix2 k c) := rfl

/-- A vector of length N, repeated down M rows. -/
def vecb (v : FVec Ideal ⟨1, ![N]⟩ .f32) (M : Nat) : Mat M N := fun i => v (ix1 ⟨(i 1).val, idx2_lt1 i⟩)

theorem vecb_apply (v : FVec Ideal ⟨1, ![N]⟩ .f32) (r : Fin M) (c : Fin N) : vecb v M (ix2 r c) = v (ix1 c) := rfl

/-- A product with the zero matrix on the right is zero: every term is x · 0 = 0, also for infinite x. -/
theorem mm_Z_right (a : Mat M K) : mm a (Z K N) = Z M N :=
  funext fun _ => Finset.sum_eq_zero fun _ _ => mul_zero _

/-- A product with the zero matrix on the left is zero. -/
theorem mm_Z_left (w : Mat K N) : mm (Z M K) w = Z M N :=
  funext fun _ => Finset.sum_eq_zero fun _ _ => zero_mul _

/-! ## Zero -/

/-- The dense all-zero constant is the zero matrix. -/
theorem constant_zero : constant (F := Ideal) ⟨2, ![M, N]⟩ .f32 0x00000000#32 = Z M N :=
  funext fun _ => Ideal.ofBits_zero_f32

/-- The kernel's splat of the all-zero word is the zero matrix. -/
theorem splat_zero : broadcast ⟨2, ![M, N]⟩ (Scalar.ofBits (F := Ideal) .f32 0x00000000#32) = Z M N :=
  funext fun _ => Ideal.ofBits_zero_f32

/-- The host's broadcast of the all-zero scalar is the zero matrix. -/
theorem hostSplat_zero (dims : Fin 0 → Fin 2) (h : (⟨0, ![]⟩ : Shape).BroadcastsInDim ⟨2, ![M, N]⟩ dims) :
    broadcastInDim ⟨2, ![M, N]⟩ dims h (constant (F := Ideal) ⟨0, ![]⟩ .f32 0x00000000#32) = Z M N :=
  funext fun _ => Ideal.ofBits_zero_f32

/-- The word 0x3F800000 is the real number one. -/
theorem one_word : Ideal.ofBits .f32 0x3F800000#32 = 1 := by
  simp [Ideal.ofBits, Ideal.ieee, -EReal.coe_mul]; norm_num

/-! ## Products -/

/-- A vector unit's plain product of narrowed operands into the zero accumulator is the matrix product. -/
theorem matmul_eq_mm (d : DotDims ⟨2, ![M, K]⟩ ⟨2, ![K, N]⟩ ⟨2, ![M, N]⟩) (hd : d = DotDims.plain M K N)
    (prec : Option ContractPrecision) (a : Mat M K) (w : Mat K N) (h1 : FTy.bf16.bits < FTy.f32.bits)
    (h2 : FTy.bf16.bits < FTy.f32.bits) :
    matmul d prec (truncf .bf16 a h1) (truncf .bf16 w h2) (constant ⟨2, ![M, N]⟩ .f32 0x00000000#32) = mm a w := by
  subst hd
  funext i
  obtain ⟨r, c, rfl⟩ : ∃ (r : Fin M) (c : Fin N), i = ix2 r c := ⟨i 0, i 1, eq_ix2 i⟩
  exact PlainDot.matmul_zero_apply M K N prec (truncf .bf16 a h1) (truncf .bf16 w h2) r c

/-- The same with the left operand already narrowed. -/
theorem matmul_eq_mm_left (d : DotDims ⟨2, ![M, K]⟩ ⟨2, ![K, N]⟩ ⟨2, ![M, N]⟩) (hd : d = DotDims.plain M K N)
    (prec : Option ContractPrecision) (a : FVec Ideal ⟨2, ![M, K]⟩ .bf16) (w : FVec Ideal ⟨2, ![K, N]⟩ .bf16) :
    matmul d prec a w (constant ⟨2, ![M, N]⟩ .f32 0x00000000#32) = mm (a : Mat M K) (w : Mat K N) := by
  subst hd
  funext i
  obtain ⟨r, c, rfl⟩ : ∃ (r : Fin M) (c : Fin N), i = ix2 r c := ⟨i 0, i 1, eq_ix2 i⟩
  exact PlainDot.matmul_zero_apply M K N prec a w r c

/-- The host's plain dot_general is the matrix product. -/
theorem dotGeneral_eq_mm (d : DotDims ⟨2, ![M, K]⟩ ⟨2, ![K, N]⟩ ⟨2, ![M, N]⟩) (hd : d = DotDims.plain M K N)
    (prec : Option ContractPrecision) (a : Mat M K) (w : Mat K N) :
    Host.dotGeneral d prec a w = mm a w := by
  subst hd
  funext i
  obtain ⟨r, c, rfl⟩ : ∃ (r : Fin M) (c : Fin N), i = ix2 r c := ⟨i 0, i 1, eq_ix2 i⟩
  exact PlainDot.dotGeneral_apply M K N prec .single a w r c

/-! ## Planes and rows -/

/-- Plane o of a stack, cut out and viewed as a matrix. -/
theorem slice_plane (W : FVec Ideal ⟨3, ![R, M, N]⟩ .f32) (o : Nat) (ho : o < R)
    (hs : (⟨3, ![R, M, N]⟩ : Shape).Slices ![o, 0, 0] ⟨3, ![1, M, N]⟩)
    (hc : (⟨3, ![1, M, N]⟩ : Shape).ShapeCasts ⟨2, ![M, N]⟩) :
    shapeCast ⟨2, ![M, N]⟩ (extractStridedSlice ⟨3, ![1, M, N]⟩ ![o, 0, 0] W hs) hc = plane W ⟨o, ho⟩ := by
  funext i
  obtain ⟨r, c, rfl⟩ : ∃ (r : Fin M) (c : Fin N), i = ix2 r c := ⟨i 0, i 1, eq_ix2 i⟩
  rw [shapeCast_1ab_ab_apply]
  refine extractStridedSlice_apply _ W hs _ (ix3 ⟨o, ho⟩ r c) fun a => ?_
  match a with
  | ⟨0, _⟩ => rfl
  | ⟨1, _⟩ => show r.val = 0 + r.val; omega
  | ⟨2, _⟩ => show c.val = 0 + c.val; omega

/-- A vector viewed as a one-row matrix and back. -/
theorem row_vec_row (x : Mat 1 N) (h1 : (⟨2, ![1, N]⟩ : Shape).ShapeCasts ⟨1, ![N]⟩)
    (h2 : (⟨1, ![N]⟩ : Shape).ShapeCasts ⟨2, ![1, N]⟩) :
    shapeCast ⟨2, ![1, N]⟩ (shapeCast ⟨1, ![N]⟩ x h1) h2 = x :=
  shapeCast_shapeCast x h1 h2

/-- Row o of a matrix, cut out and repeated down M rows by one broadcast. -/
theorem slice_rowb (b : Mat R N) (o : Nat) (ho : o < R)
    (hs : (⟨2, ![R, N]⟩ : Shape).Slices ![o, 0] ⟨2, ![1, N]⟩)
    (hb : (⟨2, ![1, N]⟩ : Shape).Broadcasts ⟨2, ![M, N]⟩) :
    broadcastTo ⟨2, ![M, N]⟩ (extractStridedSlice ⟨2, ![1, N]⟩ ![o, 0] b hs) hb = rowb b ⟨o, ho⟩ M := by
  funext i
  obtain ⟨r, c, rfl⟩ : ∃ (r : Fin M) (c : Fin N), i = ix2 r c := ⟨i 0, i 1, eq_ix2 i⟩
  rw [broadcastTo_1b_ab_apply]
  refine extractStridedSlice_apply _ b hs _ (ix2 ⟨o, ho⟩ c) fun a => ?_
  match a with
  | ⟨0, _⟩ => rfl
  | ⟨1, _⟩ => show c.val = 0 + c.val; omega

/-- Row o of a matrix, cut out, flattened to a vector, and repeated down M rows by the host's two broadcasts. -/
theorem hostSlice_rowb (b : Mat R N) (o : Nat) (ho : o < R)
    (hs : (⟨2, ![R, N]⟩ : Shape).Slices ![o, 0] ⟨2, ![1, N]⟩)
    (hc : (⟨2, ![1, N]⟩ : Shape).ShapeCasts ⟨1, ![N]⟩)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1
      (shapeCast ⟨1, ![N]⟩ (extractStridedSlice ⟨2, ![1, N]⟩ ![o, 0] b hs) hc)) = rowb b ⟨o, ho⟩ M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rw [shapeCast_1a_a_apply]
  refine extractStridedSlice_apply _ b hs _ (ix2 ⟨o, ho⟩ c) fun a => ?_
  match a with
  | ⟨0, _⟩ => rfl
  | ⟨1, _⟩ => show c.val = 0 + c.val; omega

/-- A vector viewed as a one-row matrix and repeated down M rows (the kernel's bias vector). -/
theorem vec_rowb (v : FVec Ideal ⟨1, ![N]⟩ .f32) (hc : (⟨1, ![N]⟩ : Shape).ShapeCasts ⟨2, ![1, N]⟩)
    (hb : (⟨2, ![1, N]⟩ : Shape).Broadcasts ⟨2, ![M, N]⟩) :
    broadcastTo ⟨2, ![M, N]⟩ (shapeCast ⟨2, ![1, N]⟩ v hc) hb = vecb v M := by
  funext i
  obtain ⟨r, c, rfl⟩ : ∃ (r : Fin M) (c : Fin N), i = ix2 r c := ⟨i 0, i 1, eq_ix2 i⟩
  rw [broadcastTo_1b_ab_apply, shapeCast_a_1a_apply]
  rfl

/-- A vector repeated down M rows by the host's two broadcasts (the reference's bias vector). -/
theorem hostVec_rowb (v : FVec Ideal ⟨1, ![N]⟩ .f32)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1 v) = vecb v M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rfl

/-! ## The host's transcendentals -/

/-- The host's 1 / (1 + exp (−x)), its ones splats of the word of 1.0, is the logistic function. -/
theorem hostLogistic (x : Mat M N) (dims : Fin 0 → Fin 2) (h h' : (⟨0, ![]⟩ : Shape).BroadcastsInDim ⟨2, ![M, N]⟩ dims) :
    Host.divf (broadcastInDim ⟨2, ![M, N]⟩ dims h (constant (F := Ideal) ⟨0, ![]⟩ .f32 0x3F800000#32))
      (addf (broadcastInDim ⟨2, ![M, N]⟩ dims h' (constant (F := Ideal) ⟨0, ![]⟩ .f32 0x3F800000#32)) (Host.exp (Host.negf x)))
      = logistic x := by
  funext i
  show Ideal.div (Ideal.ofBits .f32 0x3F800000#32) (Ideal.ofBits .f32 0x3F800000#32 + Ideal.exp (-(x i))) = Ideal.logistic (x i)
  rw [one_word]
  rfl

/-- The host's tanh is the kernel's. -/
theorem hostTanh (x : Mat M N) : Host.tanh x = tanh x := rfl

end Cert.WholeMat

end
-- ==== Proof.Layer.lean ====
/-
  The graph-convolution layer as whole matrices over the extended reals.

  The layer adds six matrices: the product of the node features with the self weights, one product per relation of the
  propagated features with that relation's weights, and the bias repeated down the rows. One program adds them in the
  order 0 + p₀ + p₁ + p₂ + p₃ + p₄ + b (an accumulator started at zero, the bias last), the other in the order
  p₀ + b + p₁ + p₂ + p₃ + p₄. Addition of extended reals is commutative and associative with no finiteness assumed
  (the sum of +∞ and −∞ is −∞ whichever way it is bracketed), so the two orders give one matrix.

  The accumulator form is stated over a stack of five feature matrices and a stack of five weight matrices, for any
  number of rows: the layer on a band of rows of the features is the same band of the layer, because row r of a matrix
  product reads only row r of its left factor.
-/
import proofs.«124388_j45827301048843_1_alg».proof.Proof.LibWholeMat

noncomputable section

open scoped BigOperators

namespace Cert.Layer

open Idealize.ShloMosaic Idealize.ShloMosaic.ValueIdx Cert.WholeMat

variable {M : Nat}

/-- Six matrices added in the accumulator's order: onto the zero matrix one product after another, the bias last. -/
def accOrder (p0 p1 p2 p3 p4 b : Mat M 128) : Mat M 128 :=
  addf (addf (addf (addf (addf (addf (Z M 128) p0) p1) p2) p3) p4) b

/-- The same six added in the other order: the first product, the bias, then the remaining products. -/
def refOrder (p0 b p1 p2 p3 p4 : Mat M 128) : Mat M 128 :=
  addf (addf (addf (addf (addf p0 b) p1) p2) p3) p4

/-- The two orders give one matrix: extended-real addition is commutative and associative, and 0 + x = x. -/
theorem accOrder_eq_refOrder (p0 p1 p2 p3 p4 b : Mat M 128) :
    accOrder p0 p1 p2 p3 p4 b = refOrder p0 b p1 p2 p3 p4 := by
  funext i
  simp only [accOrder, refOrder, addf, Ideal.addf_def, Z, zero_add]
  abel

/-- A stack of five M × 128 matrices and a stack of five 128 × 128 matrices. -/
abbrev Stack (M : Nat) : Type := FVec Ideal ⟨3, ![5, M, 128]⟩ .f32

/-- The layer on stacks: plane s of the features times plane s of the weights, s = 0 … 4, added in the accumulator's
    order, then row 0 of the one-row bias matrix repeated down the rows. -/
def stackLayer (S : Stack M) (W : Stack 128) (B : Mat 1 128) : Mat M 128 :=
  accOrder (mm (plane S 0) (plane W 0)) (mm (plane S 1) (plane W 1)) (mm (plane S 2) (plane W 2))
    (mm (plane S 3) (plane W 3)) (mm (plane S 4) (plane W 4)) (rowb B 0 M)

/-- Entry (r, c) of the layer on stacks, written out. -/
theorem stackLayer_apply (S : Stack M) (W : Stack 128) (B : Mat 1 128) (r : Fin M) (c : Fin 128) :
    stackLayer S W B (ix2 r c)
      = 0 + (∑ k : Fin 128, S (ix3 0 r k) * W (ix3 0 k c)) + (∑ k : Fin 128, S (ix3 1 r k) * W (ix3 1 k c))
          + (∑ k : Fin 128, S (ix3 2 r k) * W (ix3 2 k c)) + (∑ k : Fin 128, S (ix3 3 r k) * W (ix3 3 k c))
          + (∑ k : Fin 128, S (ix3 4 r k) * W (ix3 4 k c)) + B (ix2 0 c) := by
  simp only [stackLayer, accOrder, addf, Ideal.addf_def, Z, mm_apply, plane_apply, rowb_apply]

/-- The layer on a band of rows is that band of the layer: if the stack T holds, at row p of every plane, row f p of
    the stack S, then row p of the layer on T is row f p of the layer on S. -/
theorem stackLayer_band {M' : Nat} (S : Stack M) (T : Stack M') (W : Stack 128) (B : Mat 1 128) (f : Fin M' → Fin M)
    (h : ∀ (s : Fin 5) (p : Fin M') (k : Fin 128), T (ix3 s p k) = S (ix3 s (f p) k)) (p : Fin M') (c : Fin 128) :
    stackLayer T W B (ix2 p c) = stackLayer S W B (ix2 (f p) c) := by
  rw [stackLayer_apply, stackLayer_apply]
  simp only [h]

end Cert.Layer

end
-- ==== Proof.BodyValue.lean ====
/-
  The value the body stores, at the ideal values: the layer on the staged stacks.

  A plane of a stack loaded through the rectangle that starts at (o, 0, 0) and spans one plane, then viewed as a
  matrix, is that plane; a product of two such planes into the zero accumulator is the matrix product; the bias row
  loaded whole, viewed as itself twice and repeated down the rows is row 0 of the bias block repeated. So what the
  body stores is the five products of plane s of the feature block with plane s of the weight block added onto zero,
  then the bias row: the layer on stacks (`Cert.Layer.stackLayer`) of the three blocks.
-/
import proofs.«124388_j45827301048843_1_alg».proof.Proof.BodyOut
import proofs.«124388_j45827301048843_1_alg».proof.Proof.Layer

noncomputable section

namespace Cert.KernelIdeal.Hand

open Idealize.ShloMosaic Idealize.ShloMosaic.ValueIdx Cert.WholeMat Cert.Layer
open Cert.KernelIdeal Cert.KernelIdeal.Gen

/-- Plane o of a stack of R matrices, loaded through the rectangle at (o, 0, 0) of extent [1, M, N] and viewed as an
    M × N matrix: the rectangle's entry (0, r, c) sits at (o + 0, 0 + r, 0 + c). -/
theorem ld_plane {R M N : Nat} (x : Vec Ideal ⟨3, ![R, M, N]⟩ .bf16) (o : Nat) (ho : o < R)
    (inb : ∀ a, (![o, 0, 0] : Fin 3 → Nat) a + (⟨3, ![1, M, N]⟩ : Shape).size a ≤ (⟨3, ![R, M, N]⟩ : Shape).size a)
    (hc : (⟨3, ![1, M, N]⟩ : Shape).ShapeCasts ⟨2, ![M, N]⟩) :
    shapeCast ⟨2, ![M, N]⟩
        (View.ld x (Rect.unit (s := ⟨3, ![R, M, N]⟩) ![o, 0, 0] (⟨3, ![1, M, N]⟩ : Shape).size inb)
          : (⟨3, ![1, M, N]⟩ : Shape).Idx → Elt Ideal .bf16) hc
      = plane (x : FVec Ideal ⟨3, ![R, M, N]⟩ .f32) ⟨o, ho⟩ := by
  funext i
  obtain ⟨r, c, rfl⟩ : ∃ (r : Fin M) (c : Fin N), i = ix2 r c := ⟨i 0, i 1, eq_ix2 i⟩
  refine (shapeCast_1ab_ab_apply _ hc r c).trans ?_
  rw [plane_apply]
  show x _ = x _
  refine congrArg x (funext fun a => Fin.ext ?_)
  match a with
  | ⟨0, _⟩ => show o + 1 * 0 = o; omega
  | ⟨1, _⟩ => show 0 + 1 * r.val = r.val; omega
  | ⟨2, _⟩ => show 0 + 1 * c.val = c.val; omega

/-- A one-row matrix loaded whole, viewed as itself twice, and repeated down M rows: its row 0 repeated. -/
theorem ld_row {M N : Nat} (b : Vec Ideal ⟨2, ![1, N]⟩ .f32)
    (inb : ∀ a, (![0, 0] : Fin 2 → Nat) a + (⟨2, ![1, N]⟩ : Shape).size a ≤ (⟨2, ![1, N]⟩ : Shape).size a)
    (h1 h2 : (⟨2, ![1, N]⟩ : Shape).ShapeCasts ⟨2, ![1, N]⟩) (hb : (⟨2, ![1, N]⟩ : Shape).Broadcasts ⟨2, ![M, N]⟩) :
    broadcastTo ⟨2, ![M, N]⟩
        (shapeCast ⟨2, ![1, N]⟩ (shapeCast ⟨2, ![1, N]⟩
          (View.ld b (Rect.unit (s := ⟨2, ![1, N]⟩) ![0, 0] (⟨2, ![1, N]⟩ : Shape).size inb)
            : (⟨2, ![1, N]⟩ : Shape).Idx → Elt Ideal .f32) h1) h2) hb
      = rowb (b : Mat 1 N) 0 M := by
  have e : (View.ld b (Rect.unit (s := ⟨2, ![1, N]⟩) ![0, 0] (⟨2, ![1, N]⟩ : Shape).size inb)
      : (⟨2, ![1, N]⟩ : Shape).Idx → Elt Ideal .f32) = b :=
    View.ld_unit_zero (funext fun a => by match a with | ⟨0, _⟩ => rfl | ⟨1, _⟩ => rfl) inb b
  funext i
  obtain ⟨r, c, rfl⟩ : ∃ (r : Fin M) (c : Fin N), i = ix2 r c := ⟨i 0, i 1, eq_ix2 i⟩
  refine (broadcastTo_1b_ab_apply _ hb r c).trans ?_
  rw [rowb_apply]
  exact (congrFun (shapeCast_self _ h2) _).trans ((congrFun (shapeCast_self _ h1) _).trans (congrFun e _))

/-- What the body stores is the layer on the three staged blocks. -/
theorem stored_eq (x0 : Vec Ideal S5x2000x128 .bf16) (x1 : Vec Ideal S5x128x128 .bf16) (x2 : Vec Ideal S1x128 .f32) :
    stored (F := Ideal) x0 x1 x2 = stackLayer (M := 2000) x0 x1 x2 := by
  unfold stored k0_pay1 k0_pay2 k0_pay3 stackLayer accOrder
  dsimp only
  rw [matmul_eq_mm_left dot_S2000x128_S128x128_S2000x128_1_0_0_1_n_n rfl none, matmul_eq_mm_left dot_S2000x128_S128x128_S2000x128_1_0_0_1_n_n rfl none, matmul_eq_mm_left dot_S2000x128_S128x128_S2000x128_1_0_0_1_n_n rfl none, matmul_eq_mm_left dot_S2000x128_S128x128_S2000x128_1_0_0_1_n_n rfl none,
    matmul_eq_mm_left dot_S2000x128_S128x128_S2000x128_1_0_0_1_n_n rfl none]
  rw [ld_plane x0 0 (by omega), ld_plane x0 1 (by omega), ld_plane x0 2 (by omega), ld_plane x0 3 (by omega),
    ld_plane x0 4 (by omega), ld_plane x1 0 (by omega), ld_plane x1 1 (by omega), ld_plane x1 2 (by omega),
    ld_plane x1 3 (by omega), ld_plane x1 4 (by omega), ld_row (M := 2000) x2, splat_zero]
  rfl

end Cert.KernelIdeal.Hand

end
-- ==== Proof.KernelValue.lean ====
/-
  The kernel program's output array after the run, at the ideal values: the layer on the three arrays the launch finds.

  The launch runs the body at 25 points; at point t the feature block is rows 2000·t … 2000·t + 1999 of all five
  planes, the weight block and the bias block are the whole arrays, and the output block is the same rows of the
  output. The body leaves the layer on its three blocks in the output block; row p of that is row 2000·t + p of the
  layer on the whole arrays, since row r of a matrix product reads only row r of its left factor. The 25 blocks cover
  every row, so the output array is the layer on the whole arrays.
-/
import proofs.«124388_j45827301048843_1_alg».proof.Proof.FrameIdeal
import proofs.«124388_j45827301048843_1_alg».proof.Proof.BodyValue
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-! ## The output array after the run -/

section Value

open Idealize.ShloMosaic.ValueIdx Cert.WholeMat Cert.Layer

variable (m : (ℓ : Loc nD τ sig) → Buf (Elt Ideal) ℓ) (ρ : Dev nD → PrngReg)

/-- The feature stack, the weight stack and the bias row as the launch finds them. -/
abbrev srcAt (c : Dev nD) : Stack 50000 := V m c main_v173
abbrev wgtAt (c : Dev nD) : Stack 128 := V m c main_v174
abbrev biasAt (c : Dev nD) : Mat 1 128 := V m c main_v175

/-- The whole output array: the layer on the three arrays the launch finds. -/
def outAll (c : Dev nD) : Mat 50000 128 := stackLayer (M := 50000) (srcAt m c) (wgtAt m c) (biasAt m c)

theorem hz2 : (![0, 0] : Fin 2 → Nat) = fun _ => 0 := funext fun a => by fin_cases a <;> rfl

/-- Where the blocks sit: at point t the feature block is rows 2000·t … of every plane, the weight and bias blocks
    are the whole arrays, the output block is rows 2000·t … of the output. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer on a band: stacks x0 x1 x2 that hold rows 2000·a … of S, all of W and all of B give, at (p, q), the
    layer on S W B at (2000·a + p, q). Stated over plain indices so that it applies to a window's block by unification. -/
theorem layer_band (S : Stack 50000) (W : Stack 128) (B : Mat 1 128) (x0 : Stack 2000) (x1 : Stack 128) (x2 : Mat 1 128)
    (a : Nat) (ha : a < 25)
    (h0 : ∀ (s : Fin 5) (p : Fin 2000) (k : Fin 128), x0 (ix3 s p k) = S (ix3 s ⟨a * 2000 + p.val, by omega⟩ k))
    (h1 : x1 = W) (h2 : x2 = B) (j : (⟨2, ![2000, 128]⟩ : Shape).Idx) (i : (⟨2, ![50000, 128]⟩ : Shape).Idx)
    (hi0 : (i 0).val = a * 2000 + (j 0).val) (hi1 : (i 1).val = (j 1).val) :
    stackLayer x0 x1 x2 j = stackLayer S W B i := by
  subst h1 h2
  have ej : j = ix2 ⟨(j 0).val, idx2_lt0 j⟩ ⟨(j 1).val, idx2_lt1 j⟩ := eq_ix2 j
  have ei : i = ix2 ⟨a * 2000 + (j 0).val, by have := idx2_lt0 j; omega⟩ ⟨(j 1).val, idx2_lt1 j⟩ := by
    rw [eq_ix2 i]; congr 1 <;> exact Fin.ext (by assumption)
  rw [ej, ei]
  exact stackLayer_band S x0 x1 x2 (fun p => ⟨a * 2000 + p.val, by omega⟩) h0 _ _

end Value

section Value2

open Idealize.ShloMosaic.ValueIdx Cert.WholeMat Cert.Layer

variable (m : (ℓ : Loc nD τ sig) → Buf (Elt Ideal) ℓ) (ρ : Dev nD → PrngReg)

theorem lt25 (t : Fin cfg0.N) : t.val < 25 := lt_of_lt_of_eq t.isLt N_0

/-- What point t writes back is block t of the whole output array: the body stores the layer on its three blocks,
    which are rows 2000·t … of every feature plane, all the weights and the bias row; row p of the output block is
    row 2000·t + p of the output. -/
theorem flushed3_eq (c : Dev nD) (t : Fin cfg0.N) :
    (dats m 0 c).flushed 3 t = ((cfg0.win 3).blk t).view.read (Elt Ideal) (outAll m c) := by
  show (cfg0.win 3).cut (grid0.coords t) ((dats m 0 c).after 3 t) = _
  rw [after0_3]
  unfold out0_3
  rw [View.canon_unit_zero hz2, stored_eq]
  obtain ⟨e00, e01, e02, e10, e11, e12, e20, e21, e30, e31⟩ := idx_facts t
  have ht := lt25 t
  funext j
  show stackLayer (M := 2000) (iblk m c 0 t) (iblk m c 1 t) (iblk m c 2 t) j
    = outAll m c (((cfg0.win 3).blk t).view.emb j)
  unfold outAll
  refine layer_band (srcAt m c) (wgtAt m c) (biasAt m c) _ _ _ t.val ht ?_ ?_ ?_ j _ ?_ ?_
  · intro s p k
    show V m c main_v173 (((cfg0.win 0).blk t).view.emb (ix3 s p k)) = V m c main_v173 (ix3 s ⟨t.val * 2000 + p.val, by omega⟩ k)
    refine congrArg _ (funext fun a => Fin.ext ?_)
    match a with
    | ⟨0, _⟩ => show win0_0.index t (0 : Fin 3) * 5 + 1 * s.val = s.val; omega
    | ⟨1, _⟩ => show win0_0.index t (1 : Fin 3) * 2000 + 1 * p.val = t.val * 2000 + p.val; omega
    | ⟨2, _⟩ => show win0_0.index t (2 : Fin 3) * 128 + 1 * k.val = k.val; omega
  · funext y
    show V m c main_v174 (((cfg0.win 1).blk t).view.emb y) = V m c main_v174 y
    refine congrArg _ (funext fun a => Fin.ext ?_)
    match a with
    | ⟨0, _⟩ => show win0_1.index t (0 : Fin 3) * 5 + 1 * (y 0).val = (y 0).val; omega
    | ⟨1, _⟩ => show win0_1.index t (1 : Fin 3) * 128 + 1 * (y 1).val = (y 1).val; omega
    | ⟨2, _⟩ => show win0_1.index t (2 : Fin 3) * 128 + 1 * (y 2).val = (y 2).val; omega
  · funext y
    show V m c main_v175 (((cfg0.win 2).blk t).view.emb y) = V m c main_v175 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 2000 + 1 * (j 0).val = t.val * 2000 + (j 0).val; omega
  · show win0_3.index t (1 : Fin 2) * 128 + 1 * (j 1).val = (j 1).val; omega

/-- An index of the output is in point t's block exactly when each coordinate is in the block's range. -/
theorem mem_blk3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v176).slice (win0_3.rect t)).set ↔ _
  rw [View.set_slice_whole, Rect.mem_set_unit]
  exact Iff.rfl

/-- Every row of the output is in some point's block: row r in block r / 2000. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  obtain ⟨-, -, -, -, -, -, -, -, e30, e31⟩ := idx_facts ⟨(i 0).val / 2000, by rw [hN]; omega⟩
  rw [mem_blk3]
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e31]; omega

/-- The output array after the run is the layer on the arrays the launch finds. -/
theorem final3 (c : Dev nD) : (dats m 0 c).arrAt 3 cfg0.N = outAll m c :=
  (dats m 0 c).arrAt_eq_of_cover 3 (outAll m c) (fun t _ => flushed3_eq m c t) cover3

end Value2

section Run

open Idealize.ShloMosaic.ValueIdx Cert.WholeMat Cert.Layer

variable (m : (ℓ : Loc nD τ sig) → Buf (Elt Ideal) ℓ) (ρ : Dev nD → PrngReg)

/-- The run, read: every execution ends with the output array at the layer on the arrays the launch finds, and the
    seven argument arrays as they were — none of them is an array the launch stages or a buffer a host operation
    writes. -/
theorem run : θ_run defs (onTc (τ := τ) (main (F := Ideal))) ⟨m, fun _ => 0, ρ⟩ fun r => ∀ c : Dev nD,
      r.2.mem ((c.tc : Thread nD τ).loc main_v176) = outAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Run

end Cert.KernelIdeal.Hand

end
-- ==== Proof.RelKer.lean ====
/-
  One relation's propagated features: the symmetrically normalised adjacency of the relation applied to the node
  features, as the host computes it from the relation's edge list.

  For relation o (row o of the three edge tables): the edge's row node i, column node j and weight v; the degree of a
  node is the sum of the weights of the edges whose row node it is (a scatter-add into zeros); the inverse square root
  is the degree, raised to at least 1e-12, to the power −1/2; the normalised weight of an edge is
  v · invsqrt(i) · invsqrt(j), a negative node number counted from the end; and the result adds, into row i of a zero
  matrix, the normalised weight times row j of the features, over all edges.
  The operations are exactly the program's, in its order, so that the program's own term for this value unfolds to it.
-/
import proofs.«124388_j45827301048843_1_alg».proof.Proof.Gen.KernelIdeal

noncomputable section

namespace Cert.KernelIdeal.Hand

open Idealize.ShloMosaic Cert.KernelIdeal Cert.KernelIdeal.Facts₀ Cert.KernelIdeal.Facts

variable {F : FTy → Type} [FloatOps F]

/-- Row o of an edge table of node numbers, as a vector over the edges. -/
def edgeRow (o : Fin 2 → Nat) (hs : S4x800000.Slices o S1x800000) (tbl : IVec S4x800000 32) : IVec S800000 32 :=
  shapeCast _ (extractStridedSlice S1x800000 o tbl hs) shapeCasts_S1x800000_S800000

/-- Row o of the table of edge weights. -/
def edgeVal (o : Fin 2 → Nat) (hs : S4x800000.Slices o S1x800000) (vals : FVec F S4x800000 .f32) : FVec F S800000 .f32 :=
  shapeCast _ (extractStridedSlice S1x800000 o vals hs) shapeCasts_S1x800000_S800000

/-- A node number read as an index: a negative one counts from the end (50000 is added). -/
def wrapNode (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- A vector over the edges as a one-column index table. -/
def asColumn (i : IVec S800000 32) : IVec S800000x1 32 := broadcastInDim S800000x1 ![0] bcast_S800000_S800000x1_0 i

/-- The degrees to the power −1/2, the degree raised to at least 1e-12 first: node n's degree is the sum of the
    weights v of the edges whose row node is n. -/
def invSqrtDeg (i : IVec S800000 32) (v : FVec F S800000 .f32) : FVec F S50000 .f32 :=
  Host.powf
    (maximumf (broadcastInDim S50000 ![] bcast_S_S50000 (id (constant (F := F) S_ .f32 0x2B8CBCCC#32)))
      (Host.scatterAdd scatter_S50000_S800000x1_S800000_n_0_0_1
        (broadcastInDim S50000 ![] bcast_S_S50000 (constant (F := F) S_ .f32 0x00000000#32)) (asColumn i) v))
    (broadcastInDim S50000 ![] bcast_S_S50000 (constant (F := F) S_ .f32 0xBF000000#32))

/-- The normalised edge weights v · invsqrt(i) · invsqrt(j). -/
def normVal (i j : IVec S800000 32) (v : FVec F S800000 .f32) : FVec F S800000 .f32 :=
  mulf (mulf v (Host.gather gather_S50000_S800000x1_S800000_n_0_n_n_0_1_1 (invSqrtDeg i v) (asColumn (wrapNode i))))
    (Host.gather gather_S50000_S800000x1_S800000_n_0_n_n_0_1_1 (invSqrtDeg i v) (asColumn (wrapNode j)))

/-- The propagated features of one relation from its three edge vectors: into row i of a zero matrix, the
    normalised weight times row j of X, summed over the edges. -/
def propagate (X : FVec F S50000x128 .f32) (i j : IVec S800000 32) (v : FVec F S800000 .f32) : FVec F S50000x128 .f32 :=
  Host.scatterAdd scatter_S50000x128_S800000x1_S800000x128_1_0_0_1
    (broadcastInDim S50000x128 ![] bcast_S_S50000x128 (constant (F := F) S_ .f32 0x00000000#32)) (asColumn i)
    (mulf
      (broadcastInDim S800000x128 ![0, 1] bcast_S800000x1_S800000x128_0_1
        (broadcastInDim S800000x1 ![0] bcast_S800000_S800000x1_0 (normVal i j v)))
      (Host.gather gather_S50000x128_S800000x1_S800000x128_1_0_n_n_0_1_1128 X (asColumn (wrapNode j))))

/-- The propagated features of relation o, from the whole edge tables. -/
def relAX (o : Fin 2 → Nat) (hs : S4x800000.Slices o S1x800000) (X : FVec F S50000x128 .f32)
    (rows cols : IVec S4x800000 32) (vals : FVec F S4x800000 .f32) : FVec F S50000x128 .f32 :=
  propagate X (edgeRow o hs rows) (edgeRow o hs cols) (edgeVal o hs vals)

end Cert.KernelIdeal.Hand

end
-- ==== Proof.HostVals.lean ====
/-
  What the launch finds in the three arrays the kernel reads, as whole arrays over the extended reals.

  The host operations before the launch, applied in order to the memory the program starts from, leave
    • in the source stack: the node features and the four relations' propagated features, each as a one-plane block,
      the four relations' blocks joined along the leading axis, the node features' block joined in front of them, and
      the float format of the whole narrowed — which over the extended reals changes no value;
    • in the weight stack: the self weights as a one-plane block joined in front of the four relation weights,
      narrowed alike;
    • in the bias: the bias vector viewed as a one-row matrix.

  Each is obtained by reading the operations back in order: an operation's result at its own buffer is its function of
  the contents of its argument buffers, and at any other buffer it is what was there before.

  The lower bound on a relation's degrees is applied by a function of the module. Its three operations name their
  buffers through references that carry the type of the value held; the carried type is the buffer's own type, so they
  are the plain operations on the same buffers (`clip0_ops` … `clip3_ops`), and are read back as such.

  Each relation's value is the named function of RelKer.lean (`v40_eq`, `v81_eq`, `v122_eq`, `v163_eq`): that
  function spells the relation's operations in the program's order, so the value read back is its unfolding. The source
  stack (`v173_eq`) is then read by naming the four relation values in the stated right-hand side and reading both
  sides back in order: the two readings are the same term.
-/
import proofs.«124388_j45827301048843_1_alg».proof.Proof.HostV
import proofs.«124388_j45827301048843_1_alg».proof.Proof.RelKer
import Idealize.ShloMosaic.Lib.StableHlo.Run
import Idealize.ShloMosaic.PureOps.Ideal

noncomputable section

namespace Cert.KernelIdeal.Hand

open Idealize.ShloMosaic Idealize.ShloMosaic.TcCoe Idealize.SL.Sem Cert.KernelIdeal Cert.KernelIdeal.Gen
open Idealize.ShloMosaic.StableHlo

/-- The lower bound on relation 0's degrees: the called function's three operations — the bound as it is, the bound
    repeated over the nodes, the larger of it and the degree — are the plain operations on the same buffers, the type a
    reference carries being the buffer's own. -/
theorem clip0_ops {F : FTy → Type} [FloatOps F] : (hostOps0_1 : List (HloOp τ sig (Elt F))) =
    [ StableHlo.unary main_cst_0 main_call0_v0 (id : (⟨S_, .f32⟩ : BufTy).Contents (Elt F) → (⟨S_, .f32⟩ : BufTy).Contents (Elt F)),
      StableHlo.unary main_call0_v0 main_call0_v1 (broadcastInDim S50000 ![] bcast_S_S50000 : (⟨S_, .f32⟩ : BufTy).Contents (Elt F) → (⟨S50000, .f32⟩ : BufTy).Contents (Elt F)),
      StableHlo.binary main_call0_v1 main_v8 main_v9 (maximumf : (⟨S50000, .f32⟩ : BufTy).Contents (Elt F) → (⟨S50000, .f32⟩ : BufTy).Contents (Elt F) → (⟨S50000, .f32⟩ : BufTy).Contents (Elt F)) ] := rfl

/-- The lower bound on relation 1's degrees: the called function's three operations — the bound as it is, the bound
    repeated over the nodes, the larger of it and the degree — are the plain operations on the same buffers, the type a
    reference carries being the buffer's own. -/
theorem clip1_ops {F : FTy → Type} [FloatOps F] : (hostOps0_3 : List (HloOp τ sig (Elt F))) =
    [ StableHlo.unary main_cst_9 main_call1_v0 (id : (⟨S_, .f32⟩ : BufTy).Contents (Elt F) → (⟨S_, .f32⟩ : BufTy).Contents (Elt F)),
      StableHlo.unary main_call1_v0 main_call1_v1 (broadcastInDim S50000 ![] bcast_S_S50000 : (⟨S_, .f32⟩ : BufTy).Contents (Elt F) → (⟨S50000, .f32⟩ : BufTy).Contents (Elt F)),
      StableHlo.binary main_call1_v1 main_v49 main_v50 (maximumf : (⟨S50000, .f32⟩ : BufTy).Contents (Elt F) → (⟨S50000, .f32⟩ : BufTy).Contents (Elt F) → (⟨S50000, .f32⟩ : BufTy).Contents (Elt F)) ] := rfl

/-- The lower bound on relation 2's degrees: the called function's three operations — the bound as it is, the bound
    repeated over the nodes, the larger of it and the degree — are the plain operations on the same buffers, the type a
    reference carries being the buffer's own. -/
theorem clip2_ops {F : FTy → Type} [FloatOps F] : (hostOps0_5 : List (HloOp τ sig (Elt F))) =
    [ StableHlo.unary main_cst_19 main_call2_v0 (id : (⟨S_, .f32⟩ : BufTy).Contents (Elt F) → (⟨S_, .f32⟩ : BufTy).Contents (Elt F)),
      StableHlo.unary main_call2_v0 main_call2_v1 (broadcastInDim S50000 ![] bcast_S_S50000 : (⟨S_, .f32⟩ : BufTy).Contents (Elt F) → (⟨S50000, .f32⟩ : BufTy).Contents (Elt F)),
      StableHlo.binary main_call2_v1 main_v90 main_v91 (maximumf : (⟨S50000, .f32⟩ : BufTy).Contents (Elt F) → (⟨S50000, .f32⟩ : BufTy).Contents (Elt F) → (⟨S50000, .f32⟩ : BufTy).Contents (Elt F)) ] := rfl

/-- The lower bound on relation 3's degrees: the called function's three operations — the bound as it is, the bound
    repeated over the nodes, the larger of it and the degree — are the plain operations on the same buffers, the type a
    reference carries being the buffer's own. -/
theorem clip3_ops {F : FTy → Type} [FloatOps F] : (hostOps0_7 : List (HloOp τ sig (Elt F))) =
    [ StableHlo.unary main_cst_29 main_call3_v0 (id : (⟨S_, .f32⟩ : BufTy).Contents (Elt F) → (⟨S_, .f32⟩ : BufTy).Contents (Elt F)),
      StableHlo.unary main_call3_v0 main_call3_v1 (broadcastInDim S50000 ![] bcast_S_S50000 : (⟨S_, .f32⟩ : BufTy).Contents (Elt F) → (⟨S50000, .f32⟩ : BufTy).Contents (Elt F)),
      StableHlo.binary main_call3_v1 main_v131 main_v132 (maximumf : (⟨S50000, .f32⟩ : BufTy).Contents (Elt F) → (⟨S50000, .f32⟩ : BufTy).Contents (Elt F) → (⟨S50000, .f32⟩ : BufTy).Contents (Elt F)) ] := rfl

variable (m : (ℓ : Loc nD τ sig) → Buf (Elt Ideal) ℓ) (c : Dev nD)

set_option maxHeartbeats 400000 in
/-- Relation 0's propagated features at the launch are the named function of the relation's three edge vectors: that
    function spells the relation's operations in the program's order, and the value read back is its unfolding. -/
theorem v40_eq : @Eq (FVec Ideal S50000x128 .f32) (V m c main_v40)
    (relAX (F := Ideal) ![0, 0] slices_S4x800000_S1x800000_0_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32)) := by
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  unfold relAX propagate normVal invSqrtDeg asColumn wrapNode edgeRow edgeVal
  rfl

set_option maxHeartbeats 400000 in
/-- Relation 1's propagated features at the launch are the named function of the relation's three edge vectors: that
    function spells the relation's operations in the program's order, and the value read back is its unfolding. -/
theorem v81_eq : @Eq (FVec Ideal S50000x128 .f32) (V m c main_v81)
    (relAX (F := Ideal) ![1, 0] slices_S4x800000_S1x800000_1_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32)) := by
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  unfold relAX propagate normVal invSqrtDeg asColumn wrapNode edgeRow edgeVal
  rfl

set_option maxHeartbeats 400000 in
/-- Relation 2's propagated features at the launch are the named function of the relation's three edge vectors: that
    function spells the relation's operations in the program's order, and the value read back is its unfolding. -/
theorem v122_eq : @Eq (FVec Ideal S50000x128 .f32) (V m c main_v122)
    (relAX (F := Ideal) ![2, 0] slices_S4x800000_S1x800000_2_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32)) := by
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  unfold relAX propagate normVal invSqrtDeg asColumn wrapNode edgeRow edgeVal
  rfl

set_option maxHeartbeats 400000 in
/-- Relation 3's propagated features at the launch are the named function of the relation's three edge vectors: that
    function spells the relation's operations in the program's order, and the value read back is its unfolding. -/
theorem v163_eq : @Eq (FVec Ideal S50000x128 .f32) (V m c main_v163)
    (relAX (F := Ideal) ![3, 0] slices_S4x800000_S1x800000_3_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32)) := by
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  unfold relAX propagate normVal invSqrtDeg asColumn wrapNode edgeRow edgeVal
  rfl

set_option maxHeartbeats 1000000 in
/-- The source stack at the launch: the node features' plane in front of the four relations' planes, narrowed. The four
    relation values are named in the right-hand side, and both sides are read back in order: the same term. -/
theorem v173_eq : @Eq (FVec Ideal S5x50000x128 .bf16) (V m c main_v173)
    (truncf .bf16
      (concatenate S5x50000x128 0
        [⟨S1x50000x128, broadcastInDim S1x50000x128 ![1, 2] bcast_S50000x128_S1x50000x128_1_2 (m ((c : Thread nD τ).loc main_arg0) : FVec Ideal S50000x128 .f32)⟩,
         ⟨S4x50000x128, concatenate S4x50000x128 0
            [⟨S1x50000x128, broadcastInDim S1x50000x128 ![1, 2] bcast_S50000x128_S1x50000x128_1_2
              (relAX (F := Ideal) ![0, 0] slices_S4x800000_S1x800000_0_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32))⟩,
             ⟨S1x50000x128, broadcastInDim S1x50000x128 ![1, 2] bcast_S50000x128_S1x50000x128_1_2
              (relAX (F := Ideal) ![1, 0] slices_S4x800000_S1x800000_1_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32))⟩,
             ⟨S1x50000x128, broadcastInDim S1x50000x128 ![1, 2] bcast_S50000x128_S1x50000x128_1_2
              (relAX (F := Ideal) ![2, 0] slices_S4x800000_S1x800000_2_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32))⟩,
             ⟨S1x50000x128, broadcastInDim S1x50000x128 ![1, 2] bcast_S50000x128_S1x50000x128_1_2
              (relAX (F := Ideal) ![3, 0] slices_S4x800000_S1x800000_3_0 (m ((c : Thread nD τ).loc main_arg0) : FVec Ideal S50000x128 .f32) (m ((c : Thread nD τ).loc main_arg1) : IVec S4x800000 32) (m ((c : Thread nD τ).loc main_arg2) : IVec S4x800000 32) (m ((c : Thread nD τ).loc main_arg3) : FVec Ideal S4x800000 .f32))⟩]
            concatenates_S1x50000x128_S1x50000x128_S1x50000x128_S1x50000x128_S4x50000x128_d0⟩]
        concatenates_S1x50000x128_S4x50000x128_S5x50000x128_d0)
      bitsLt_bf16_f32) := by
  rw [← v40_eq m c, ← v81_eq m c, ← v122_eq m c, ← v163_eq m c]
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  rfl

/-- The weight stack at the launch: the self weights' plane in front of the four relation weights, narrowed. -/
theorem v174_eq : @Eq (FVec Ideal S5x128x128 .bf16) (V m c main_v174)
    (truncf .bf16
      (concatenate S5x128x128 0
        [⟨S1x128x128, broadcastInDim S1x128x128 ![1, 2] bcast_S128x128_S1x128x128_1_2 (m ((c : Thread nD τ).loc main_arg5) : FVec Ideal S128x128 .f32)⟩,
         ⟨S4x128x128, (m ((c : Thread nD τ).loc main_arg4) : FVec Ideal S4x128x128 .f32)⟩]
        concatenates_S1x128x128_S4x128x128_S5x128x128_d0)
      bitsLt_bf16_f32) := by
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  rfl

/-- The bias at the launch: the bias vector viewed as a one-row matrix. -/
theorem v175_eq : @Eq (FVec Ideal S1x128 .f32) (V m c main_v175)
    (shapeCast S1x128 (m ((c : Thread nD τ).loc main_arg6) : FVec Ideal S128 .f32) shapeCasts_S128_S1x128) := by
  dsimp only [V]
  rw [clip0_ops, clip1_ops, clip2_ops, clip3_ops]
  simp only [hostOps0, hostOps0_2, hostOps0_4, hostOps0_6, hostOps0_8,
    List.flatten_cons, List.flatten_nil, List.append_nil, List.cons_append, List.nil_append]
  after_results_simp
  rfl

end Cert.KernelIdeal.Hand

end
-- ==== Proof.StackPlanes.lean ====
/-
  The stacks the launch reads, plane by plane.

  The feature stack [5, 50000, 128] is the node features X lifted to one plane, followed along the leading axis by the
  four relations' propagated features, each lifted to one plane and joined; the weight stack [5, 128, 128] is the self
  weight lifted to one plane followed by the four relation weights; both are then narrowed to bf16, which over the
  extended reals changes no entry. So plane 0 of the feature stack is X and plane n + 1 is the n-th relation's features;
  plane 0 of the weight stack is the self weight and plane n + 1 is plane n of the relation weights. The bias, a vector
  of length 128 viewed as a one-row matrix, has that one row equal to the vector.
-/
import proofs.«124388_j45827301048843_1_alg».proof.Proof.Gen.KernelIdeal
import proofs.«124388_j45827301048843_1_alg».proof.Proof.LibWholeMat
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.ValueIdx Cert.KernelIdeal Cert.KernelIdeal.Gen Cert.WholeMat

variable (X A0 A1 A2 A3 : FVec Ideal S50000x128 .f32) (Wself : FVec Ideal S128x128 .f32)
  (Wrel : FVec Ideal S4x128x128 .f32) (bias : FVec Ideal S128 .f32)

/-! ## One matrix lifted to a one-plane stack -/

/-- A [50000, 128] matrix lifted to [1, 50000, 128] reads, at (u, r, k), the matrix at (r, k). -/
theorem lift_feat_apply (Y : FVec Ideal S50000x128 .f32)
    (hb : S50000x128.BroadcastsInDim S1x50000x128 (![1, 2] : Fin 2 → Fin S1x50000x128.rank))
    (u : Fin 1) (r : Fin 50000) (k : Fin 128) :
    broadcastInDim S1x50000x128 ![1, 2] hb Y (ix3 u r k) = Y (ix2 r k) :=
  broadcastInDim_apply _ hb Y (ix3 u r k) (ix2 r k) (fun a => by
    match a with
    | ⟨0, _⟩ => show r.val = if (50000 : Nat) = 1 then 0 else r.val; rfl
    | ⟨1, _⟩ => show k.val = if (128 : Nat) = 1 then 0 else k.val; rfl)

/-- A [128, 128] matrix lifted to [1, 128, 128] reads, at (u, r, k), the matrix at (r, k). -/
theorem lift_wgt_apply (Y : FVec Ideal S128x128 .f32)
    (hbw : S128x128.BroadcastsInDim S1x128x128 (![1, 2] : Fin 2 → Fin S1x128x128.rank))
    (u : Fin 1) (r : Fin 128) (k : Fin 128) :
    broadcastInDim S1x128x128 ![1, 2] hbw Y (ix3 u r k) = Y (ix2 r k) :=
  broadcastInDim_apply _ hbw Y (ix3 u r k) (ix2 r k) (fun a => by
    match a with
    | ⟨0, _⟩ => show r.val = if (128 : Nat) = 1 then 0 else r.val; rfl
    | ⟨1, _⟩ => show k.val = if (128 : Nat) = 1 then 0 else k.val; rfl)

/-! ## The feature stack -/

/-- Plane 0 of the feature stack is the node features. -/
theorem plane_src_0 (hb : S50000x128.BroadcastsInDim S1x50000x128 (![1, 2] : Fin 2 → Fin S1x50000x128.rank))
    (h4 : Shape.Concatenates [S1x50000x128, S1x50000x128, S1x50000x128, S1x50000x128] S4x50000x128 0)
    (h5 : Shape.Concatenates [S1x50000x128, S4x50000x128] S5x50000x128 0) (ht : FTy.bits .bf16 < FTy.bits .f32) :
    plane (truncf .bf16 (concatenate S5x50000x128 0 [⟨S1x50000x128, broadcastInDim S1x50000x128 ![1, 2] hb X⟩, ⟨S4x50000x128, concatenate S4x50000x128 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4⟩] h5) ht : FVec Ideal ⟨3, ![5, 50000, 128]⟩ .f32) 0 = X := by
  funext i
  obtain ⟨r, k, rfl⟩ : ∃ (r : Fin 50000) (k : Fin 128), i = ix2 r k := ⟨i 0, i 1, eq_ix2 i⟩
  rw [plane_apply]
  rw [truncf_apply]
  rw [concatenate_pair_apply_left 0 _ _ h5 (ix3 (0 : Fin 5) r k) rfl (ix3 (0 : Fin 1) r k) (fun b => by
    match b with
    | ⟨0, _⟩ => rfl
    | ⟨1, _⟩ => rfl
    | ⟨2, _⟩ => rfl)]
  exact lift_feat_apply X hb 0 r k

/-- Plane 1 of the feature stack is relation 0's propagated features. -/
theorem plane_src_1 (hb : S50000x128.BroadcastsInDim S1x50000x128 (![1, 2] : Fin 2 → Fin S1x50000x128.rank))
    (h4 : Shape.Concatenates [S1x50000x128, S1x50000x128, S1x50000x128, S1x50000x128] S4x50000x128 0)
    (h5 : Shape.Concatenates [S1x50000x128, S4x50000x128] S5x50000x128 0) (ht : FTy.bits .bf16 < FTy.bits .f32) :
    plane (truncf .bf16 (concatenate S5x50000x128 0 [⟨S1x50000x128, broadcastInDim S1x50000x128 ![1, 2] hb X⟩, ⟨S4x50000x128, concatenate S4x50000x128 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4⟩] h5) ht : FVec Ideal ⟨3, ![5, 50000, 128]⟩ .f32) 1 = A0 := by
  funext i
  obtain ⟨r, k, rfl⟩ : ∃ (r : Fin 50000) (k : Fin 128), i = ix2 r k := ⟨i 0, i 1, eq_ix2 i⟩
  rw [plane_apply]
  rw [truncf_apply]
  rw [concatenate_pair_apply_right 0 _ _ h5 (ix3 (1 : Fin 5) r k) rfl rfl (ix3 (0 : Fin 4) r k) (fun b hb' => by
    match b with
    | ⟨0, _⟩ => exact absurd rfl hb'
    | ⟨1, _⟩ => rfl
    | ⟨2, _⟩ => rfl) rfl]
  refine (concatenate_apply_piece 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4 (ix3 (0 : Fin 4) r k) 0 (by show 0 < 4; omega) S1x50000x128 (broadcastInDim S1x50000x128 ![1, 2] hb A0) rfl rfl 0 (by rfl)
    (ix3 (0 : Fin 1) r k) (fun b hb' => by
    match b with
    | ⟨0, _⟩ => exact absurd rfl hb'
    | ⟨1, _⟩ => rfl
    | ⟨2, _⟩ => rfl) rfl).trans ?_
  exact lift_feat_apply A0 hb 0 r k

/-- Plane 2 of the feature stack is relation 1's propagated features. -/
theorem plane_src_2 (hb : S50000x128.BroadcastsInDim S1x50000x128 (![1, 2] : Fin 2 → Fin S1x50000x128.rank))
    (h4 : Shape.Concatenates [S1x50000x128, S1x50000x128, S1x50000x128, S1x50000x128] S4x50000x128 0)
    (h5 : Shape.Concatenates [S1x50000x128, S4x50000x128] S5x50000x128 0) (ht : FTy.bits .bf16 < FTy.bits .f32) :
    plane (truncf .bf16 (concatenate S5x50000x128 0 [⟨S1x50000x128, broadcastInDim S1x50000x128 ![1, 2] hb X⟩, ⟨S4x50000x128, concatenate S4x50000x128 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4⟩] h5) ht : FVec Ideal ⟨3, ![5, 50000, 128]⟩ .f32) 2 = A1 := by
  funext i
  obtain ⟨r, k, rfl⟩ : ∃ (r : Fin 50000) (k : Fin 128), i = ix2 r k := ⟨i 0, i 1, eq_ix2 i⟩
  rw [plane_apply]
  rw [truncf_apply]
  rw [concatenate_pair_apply_right 0 _ _ h5 (ix3 (2 : Fin 5) r k) rfl rfl (ix3 (1 : Fin 4) r k) (fun b hb' => by
    match b with
    | ⟨0, _⟩ => exact absurd rfl hb'
    | ⟨1, _⟩ => rfl
    | ⟨2, _⟩ => rfl) rfl]
  refine (concatenate_apply_piece 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4 (ix3 (1 : Fin 4) r k) 1 (by show 1 < 4; omega) S1x50000x128 (broadcastInDim S1x50000x128 ![1, 2] hb A1) rfl rfl 1 (by rfl)
    (ix3 (0 : Fin 1) r k) (fun b hb' => by
    match b with
    | ⟨0, _⟩ => exact absurd rfl hb'
    | ⟨1, _⟩ => rfl
    | ⟨2, _⟩ => rfl) rfl).trans ?_
  exact lift_feat_apply A1 hb 0 r k

/-- Plane 3 of the feature stack is relation 2's propagated features. -/
theorem plane_src_3 (hb : S50000x128.BroadcastsInDim S1x50000x128 (![1, 2] : Fin 2 → Fin S1x50000x128.rank))
    (h4 : Shape.Concatenates [S1x50000x128, S1x50000x128, S1x50000x128, S1x50000x128] S4x50000x128 0)
    (h5 : Shape.Concatenates [S1x50000x128, S4x50000x128] S5x50000x128 0) (ht : FTy.bits .bf16 < FTy.bits .f32) :
    plane (truncf .bf16 (concatenate S5x50000x128 0 [⟨S1x50000x128, broadcastInDim S1x50000x128 ![1, 2] hb X⟩, ⟨S4x50000x128, concatenate S4x50000x128 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4⟩] h5) ht : FVec Ideal ⟨3, ![5, 50000, 128]⟩ .f32) 3 = A2 := by
  funext i
  obtain ⟨r, k, rfl⟩ : ∃ (r : Fin 50000) (k : Fin 128), i = ix2 r k := ⟨i 0, i 1, eq_ix2 i⟩
  rw [plane_apply]
  rw [truncf_apply]
  rw [concatenate_pair_apply_right 0 _ _ h5 (ix3 (3 : Fin 5) r k) rfl rfl (ix3 (2 : Fin 4) r k) (fun b hb' => by
    match b with
    | ⟨0, _⟩ => exact absurd rfl hb'
    | ⟨1, _⟩ => rfl
    | ⟨2, _⟩ => rfl) rfl]
  refine (concatenate_apply_piece 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4 (ix3 (2 : Fin 4) r k) 2 (by show 2 < 4; omega) S1x50000x128 (broadcastInDim S1x50000x128 ![1, 2] hb A2) rfl rfl 2 (by rfl)
    (ix3 (0 : Fin 1) r k) (fun b hb' => by
    match b with
    | ⟨0, _⟩ => exact absurd rfl hb'
    | ⟨1, _⟩ => rfl
    | ⟨2, _⟩ => rfl) rfl).trans ?_
  exact lift_feat_apply A2 hb 0 r k

/-- Plane 4 of the feature stack is relation 3's propagated features. -/
theorem plane_src_4 (hb : S50000x128.BroadcastsInDim S1x50000x128 (![1, 2] : Fin 2 → Fin S1x50000x128.rank))
    (h4 : Shape.Concatenates [S1x50000x128, S1x50000x128, S1x50000x128, S1x50000x128] S4x50000x128 0)
    (h5 : Shape.Concatenates [S1x50000x128, S4x50000x128] S5x50000x128 0) (ht : FTy.bits .bf16 < FTy.bits .f32) :
    plane (truncf .bf16 (concatenate S5x50000x128 0 [⟨S1x50000x128, broadcastInDim S1x50000x128 ![1, 2] hb X⟩, ⟨S4x50000x128, concatenate S4x50000x128 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4⟩] h5) ht : FVec Ideal ⟨3, ![5, 50000, 128]⟩ .f32) 4 = A3 := by
  funext i
  obtain ⟨r, k, rfl⟩ : ∃ (r : Fin 50000) (k : Fin 128), i = ix2 r k := ⟨i 0, i 1, eq_ix2 i⟩
  rw [plane_apply]
  rw [truncf_apply]
  rw [concatenate_pair_apply_right 0 _ _ h5 (ix3 (4 : Fin 5) r k) rfl rfl (ix3 (3 : Fin 4) r k) (fun b hb' => by
    match b with
    | ⟨0, _⟩ => exact absurd rfl hb'
    | ⟨1, _⟩ => rfl
    | ⟨2, _⟩ => rfl) rfl]
  refine (concatenate_apply_piece 0 [⟨S1x50000x128, broadcastInDim S1x50000x128 ![1, 2] hb A0⟩, ⟨S1x50000x128, broadcastInDim S1x50000x128 ![1, 2] hb A1⟩, ⟨S1x50000x128, broadcastInDim S1x50000x128 ![1, 2] hb A2⟩, ⟨S1x50000x128, broadcastInDim S1x50000x128 ![1, 2] hb A3⟩] h4 (ix3 (3 : Fin 4) r k) 3 (by show 3 < 4; omega) S1x50000x128 (broadcastInDim S1x50000x128 ![1, 2] hb A3) rfl rfl 3 (by rfl)
    (ix3 (0 : Fin 1) r k) (fun b hb' => by
    match b with
    | ⟨0, _⟩ => exact absurd rfl hb'
    | ⟨1, _⟩ => rfl
    | ⟨2, _⟩ => rfl) rfl).trans ?_
  exact lift_feat_apply A3 hb 0 r k

/-! ## The weight stack -/

/-- Plane 0 of the weight stack is the self weight. -/
theorem plane_wgt_0 (hbw : S128x128.BroadcastsInDim S1x128x128 (![1, 2] : Fin 2 → Fin S1x128x128.rank))
    (hw5 : Shape.Concatenates [S1x128x128, S4x128x128] S5x128x128 0) (ht : FTy.bits .bf16 < FTy.bits .f32) :
    plane (truncf .bf16 (concatenate S5x128x128 0 [⟨S1x128x128, broadcastInDim S1x128x128 ![1, 2] hbw Wself⟩, ⟨S4x128x128, Wrel⟩] hw5) ht : FVec Ideal ⟨3, ![5, 128, 128]⟩ .f32) 0 = Wself := by
  funext i
  obtain ⟨r, k, rfl⟩ : ∃ (r : Fin 128) (k : Fin 128), i = ix2 r k := ⟨i 0, i 1, eq_ix2 i⟩
  rw [plane_apply]
  rw [truncf_apply]
  rw [concatenate_pair_apply_left 0 _ _ hw5 (ix3 (0 : Fin 5) r k) rfl (ix3 (0 : Fin 1) r k) (fun b => by
    match b with
    | ⟨0, _⟩ => rfl
    | ⟨1, _⟩ => rfl
    | ⟨2, _⟩ => rfl)]
  exact lift_wgt_apply Wself hbw 0 r k

/-- Plane 1 of the weight stack is plane 0 of the relation weights. -/
theorem plane_wgt_1 (hbw : S128x128.BroadcastsInDim S1x128x128 (![1, 2] : Fin 2 → Fin S1x128x128.rank))
    (hw5 : Shape.Concatenates [S1x128x128, S4x128x128] S5x128x128 0) (ht : FTy.bits .bf16 < FTy.bits .f32) :
    plane (truncf .bf16 (concatenate S5x128x128 0 [⟨S1x128x128, broadcastInDim S1x128x128 ![1, 2] hbw Wself⟩, ⟨S4x128x128, Wrel⟩] hw5) ht : FVec Ideal ⟨3, ![5, 128, 128]⟩ .f32) 1 = plane (Wrel : FVec Ideal ⟨3, ![4, 128, 128]⟩ .f32) 0 := by
  funext i
  obtain ⟨r, k, rfl⟩ : ∃ (r : Fin 128) (k : Fin 128), i = ix2 r k := ⟨i 0, i 1, eq_ix2 i⟩
  rw [plane_apply, plane_apply]
  rw [truncf_apply]
  exact concatenate_pair_apply_right 0 _ _ hw5 (ix3 (1 : Fin 5) r k) rfl rfl (ix3 (0 : Fin 4) r k) (fun b hb' => by
    match b with
    | ⟨0, _⟩ => exact absurd rfl hb'
    | ⟨1, _⟩ => rfl
    | ⟨2, _⟩ => rfl) rfl

/-- Plane 2 of the weight stack is plane 1 of the relation weights. -/
theorem plane_wgt_2 (hbw : S128x128.BroadcastsInDim S1x128x128 (![1, 2] : Fin 2 → Fin S1x128x128.rank))
    (hw5 : Shape.Concatenates [S1x128x128, S4x128x128] S5x128x128 0) (ht : FTy.bits .bf16 < FTy.bits .f32) :
    plane (truncf .bf16 (concatenate S5x128x128 0 [⟨S1x128x128, broadcastInDim S1x128x128 ![1, 2] hbw Wself⟩, ⟨S4x128x128, Wrel⟩] hw5) ht : FVec Ideal ⟨3, ![5, 128, 128]⟩ .f32) 2 = plane (Wrel : FVec Ideal ⟨3, ![4, 128, 128]⟩ .f32) 1 := by
  funext i
  obtain ⟨r, k, rfl⟩ : ∃ (r : Fin 128) (k : Fin 128), i = ix2 r k := ⟨i 0, i 1, eq_ix2 i⟩
  rw [plane_apply, plane_apply]
  rw [truncf_apply]
  exact concatenate_pair_apply_right 0 _ _ hw5 (ix3 (2 : Fin 5) r k) rfl rfl (ix3 (1 : Fin 4) r k) (fun b hb' => by
    match b with
    | ⟨0, _⟩ => exact absurd rfl hb'
    | ⟨1, _⟩ => rfl
    | ⟨2, _⟩ => rfl) rfl

/-- Plane 3 of the weight stack is plane 2 of the relation weights. -/
theorem plane_wgt_3 (hbw : S128x128.BroadcastsInDim S1x128x128 (![1, 2] : Fin 2 → Fin S1x128x128.rank))
    (hw5 : Shape.Concatenates [S1x128x128, S4x128x128] S5x128x128 0) (ht : FTy.bits .bf16 < FTy.bits .f32) :
    plane (truncf .bf16 (concatenate S5x128x128 0 [⟨S1x128x128, broadcastInDim S1x128x128 ![1, 2] hbw Wself⟩, ⟨S4x128x128, Wrel⟩] hw5) ht : FVec Ideal ⟨3, ![5, 128, 128]⟩ .f32) 3 = plane (Wrel : FVec Ideal ⟨3, ![4, 128, 128]⟩ .f32) 2 := by
  funext i
  obtain ⟨r, k, rfl⟩ : ∃ (r : Fin 128) (k : Fin 128), i = ix2 r k := ⟨i 0, i 1, eq_ix2 i⟩
  rw [plane_apply, plane_apply]
  rw [truncf_apply]
  exact concatenate_pair_apply_right 0 _ _ hw5 (ix3 (3 : Fin 5) r k) rfl rfl (ix3 (2 : Fin 4) r k) (fun b hb' => by
    match b with
    | ⟨0, _⟩ => exact absurd rfl hb'
    | ⟨1, _⟩ => rfl
    | ⟨2, _⟩ => rfl) rfl

/-- Plane 4 of the weight stack is plane 3 of the relation weights. -/
theorem plane_wgt_4 (hbw : S128x128.BroadcastsInDim S1x128x128 (![1, 2] : Fin 2 → Fin S1x128x128.rank))
    (hw5 : Shape.Concatenates [S1x128x128, S4x128x128] S5x128x128 0) (ht : FTy.bits .bf16 < FTy.bits .f32) :
    plane (truncf .bf16 (concatenate S5x128x128 0 [⟨S1x128x128, broadcastInDim S1x128x128 ![1, 2] hbw Wself⟩, ⟨S4x128x128, Wrel⟩] hw5) ht : FVec Ideal ⟨3, ![5, 128, 128]⟩ .f32) 4 = plane (Wrel : FVec Ideal ⟨3, ![4, 128, 128]⟩ .f32) 3 := by
  funext i
  obtain ⟨r, k, rfl⟩ : ∃ (r : Fin 128) (k : Fin 128), i = ix2 r k := ⟨i 0, i 1, eq_ix2 i⟩
  rw [plane_apply, plane_apply]
  rw [truncf_apply]
  exact concatenate_pair_apply_right 0 _ _ hw5 (ix3 (4 : Fin 5) r k) rfl rfl (ix3 (3 : Fin 4) r k) (fun b hb' => by
    match b with
    | ⟨0, _⟩ => exact absurd rfl hb'
    | ⟨1, _⟩ => rfl
    | ⟨2, _⟩ => rfl) rfl

/-! ## The bias row -/

/-- The bias viewed as a one-row matrix: that row, repeated down M rows, is the bias repeated down M rows. -/
theorem rowb_bias (hc : S128.ShapeCasts S1x128) (M : Nat) :
    rowb (shapeCast S1x128 bias hc : Mat 1 128) 0 M = vecb bias M := by
  funext i
  obtain ⟨r, k, rfl⟩ : ∃ (r : Fin M) (k : Fin 128), i = ix2 r k := ⟨i 0, i 1, eq_ix2 i⟩
  rw [rowb_apply, vecb_apply]
  exact shapeCast_a_1a_apply bias hc 0 k

/-! ## The stacks as the program spells them -/

/-- The feature stack: the node features and the four relations' features, each lifted to one plane, joined along
    the leading axis and narrowed. -/
def srcStack : FVec Ideal S5x50000x128 .bf16 :=
  truncf .bf16 (concatenate S5x50000x128 0 [⟨S1x50000x128, broadcastInDim S1x50000x128 ![1, 2] bcast_S50000x128_S1x50000x128_1_2 X⟩, ⟨S4x50000x128, concatenate S4x50000x128 0 [⟨S1x50000x128, broadcastInDim S1x50000x128 ![1, 2] bcast_S50000x128_S1x50000x128_1_2 A0⟩, ⟨S1x50000x128, broadcastInDim S1x50000x128 ![1, 2] bcast_S50000x128_S1x50000x128_1_2 A1⟩, ⟨S1x50000x128, broadcastInDim S1x50000x128 ![1, 2] bcast_S50000x128_S1x50000x128_1_2 A2⟩, ⟨S1x50000x128, broadcastInDim S1x50000x128 ![1, 2] bcast_S50000x128_S1x50000x128_1_2 A3⟩] concatenates_S1x50000x128_S1x50000x128_S1x50000x128_S1x50000x128_S4x50000x128_d0⟩] concatenates_S1x50000x128_S4x50000x128_S5x50000x128_d0) bitsLt_bf16_f32

/-- The weight stack: the self weight lifted to one plane, the four relation weights after it, narrowed. -/
def wgtStack : FVec Ideal S5x128x128 .bf16 :=
  truncf .bf16 (concatenate S5x128x128 0 [⟨S1x128x128, broadcastInDim S1x128x128 ![1, 2] bcast_S128x128_S1x128x128_1_2 Wself⟩, ⟨S4x128x128, Wrel⟩] concatenates_S1x128x128_S4x128x128_S5x128x128_d0) bitsLt_bf16_f32

/-- The bias as a one-row matrix. -/
def biasRow : FVec Ideal S1x128 .f32 := shapeCast S1x128 bias shapeCasts_S128_S1x128

theorem plane_srcStack_0 : plane (srcStack X A0 A1 A2 A3 : FVec Ideal ⟨3, ![5, 50000, 128]⟩ .f32) 0 = X :=
  plane_src_0 X A0 A1 A2 A3 _ _ _ _
theorem plane_srcStack_1 : plane (srcStack X A0 A1 A2 A3 : FVec Ideal ⟨3, ![5, 50000, 128]⟩ .f32) 1 = A0 :=
  plane_src_1 X A0 A1 A2 A3 _ _ _ _
theorem plane_srcStack_2 : plane (srcStack X A0 A1 A2 A3 : FVec Ideal ⟨3, ![5, 50000, 128]⟩ .f32) 2 = A1 :=
  plane_src_2 X A0 A1 A2 A3 _ _ _ _
theorem plane_srcStack_3 : plane (srcStack X A0 A1 A2 A3 : FVec Ideal ⟨3, ![5, 50000, 128]⟩ .f32) 3 = A2 :=
  plane_src_3 X A0 A1 A2 A3 _ _ _ _
theorem plane_srcStack_4 : plane (srcStack X A0 A1 A2 A3 : FVec Ideal ⟨3, ![5, 50000, 128]⟩ .f32) 4 = A3 :=
  plane_src_4 X A0 A1 A2 A3 _ _ _ _

theorem plane_wgtStack_0 : plane (wgtStack Wself Wrel : FVec Ideal ⟨3, ![5, 128, 128]⟩ .f32) 0 = Wself :=
  plane_wgt_0 Wself Wrel _ _ _
theorem plane_wgtStack_1 : plane (wgtStack Wself Wrel : FVec Ideal ⟨3, ![5, 128, 128]⟩ .f32) 1 = plane (Wrel : FVec Ideal ⟨3, ![4, 128, 128]⟩ .f32) 0 :=
  plane_wgt_1 Wself Wrel _ _ _
theorem plane_wgtStack_2 : plane (wgtStack Wself Wrel : FVec Ideal ⟨3, ![5, 128, 128]⟩ .f32) 2 = plane (Wrel : FVec Ideal ⟨3, ![4, 128, 128]⟩ .f32) 1 :=
  plane_wgt_2 Wself Wrel _ _ _
theorem plane_wgtStack_3 : plane (wgtStack Wself Wrel : FVec Ideal ⟨3, ![5, 128, 128]⟩ .f32) 3 = plane (Wrel : FVec Ideal ⟨3, ![4, 128, 128]⟩ .f32) 2 :=
  plane_wgt_3 Wself Wrel _ _ _
theorem plane_wgtStack_4 : plane (wgtStack Wself Wrel : FVec Ideal ⟨3, ![5, 128, 128]⟩ .f32) 4 = plane (Wrel : FVec Ideal ⟨3, ![4, 128, 128]⟩ .f32) 3 :=
  plane_wgt_4 Wself Wrel _ _ _

theorem rowb_biasRow (M : Nat) : rowb (biasRow bias : Mat 1 128) 0 M = vecb bias M :=
  rowb_bias bias _ M

end Cert.KernelIdeal.Hand

end
-- ==== Proof.RelRef.lean ====
/-
  One relation's propagated features: the symmetrically normalised adjacency of the relation applied to the node
  features, as the host computes it from the relation's edge list.

  For relation o (row o of the three edge tables): the edge's row node i, column node j and weight v; the degree of a
  node is the sum of the weights of the edges whose row node it is (a scatter-add into zeros); the inverse square root
  is the degree, raised to at least 1e-12, to the power −1/2; the normalised weight of an edge is
  v · invsqrt(i) · invsqrt(j), a negative node number counted from the end; and the result adds, into row i of a zero
  matrix, the normalised weight times row j of the features, over all edges.
  The operations are exactly the program's, in its order, so that the program's own term for this value unfolds to it.
-/
import proofs.«124388_j45827301048843_1_alg».proof.Proof.Gen.ReferenceIdeal

noncomputable section

namespace Cert.ReferenceIdeal.Hand

open Idealize.ShloMosaic Cert.ReferenceIdeal Cert.ReferenceIdeal.Facts₀ Cert.ReferenceIdeal.Facts

variable {F : FTy → Type} [FloatOps F]

/-- Row o of an edge table of node numbers, as a vector over the edges. -/
def edgeRow (o : Fin 2 → Nat) (hs : S4x800000.Slices o S1x800000) (tbl : IVec S4x800000 32) : IVec S800000 32 :=
  shapeCast _ (extractStridedSlice S1x800000 o tbl hs) shapeCasts_S1x800000_S800000

/-- Row o of the table of edge weights. -/
def edgeVal (o : Fin 2 → Nat) (hs : S4x800000.Slices o S1x800000) (vals : FVec F S4x800000 .f32) : FVec F S800000 .f32 :=
  shapeCast _ (extractStridedSlice S1x800000 o vals hs) shapeCasts_S1x800000_S800000

/-- A node number read as an index: a negative one counts from the end (50000 is added). -/
def wrapNode (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- A vector over the edges as a one-column index table. -/
def asColumn (i : IVec S800000 32) : IVec S800000x1 32 := broadcastInDim S800000x1 ![0] bcast_S800000_S800000x1_0 i

/-- The degrees to the power −1/2, the degree raised to at least 1e-12 first: node n's degree is the sum of the
    weights v of the edges whose row node is n. -/
def invSqrtDeg (i : IVec S800000 32) (v : FVec F S800000 .f32) : FVec F S50000 .f32 :=
  Host.powf
    (maximumf (broadcastInDim S50000 ![] bcast_S_S50000 (id (constant (F := F) S_ .f32 0x2B8CBCCC#32)))
      (Host.scatterAdd scatter_S50000_S800000x1_S800000_n_0_0_1
        (broadcastInDim S50000 ![] bcast_S_S50000 (constant (F := F) S_ .f32 0x00000000#32)) (asColumn i) v))
    (broadcastInDim S50000 ![] bcast_S_S50000 (constant (F := F) S_ .f32 0xBF000000#32))

/-- The normalised edge weights v · invsqrt(i) · invsqrt(j). -/
def normVal (i j : IVec S800000 32) (v : FVec F S800000 .f32) : FVec F S800000 .f32 :=
  mulf (mulf v (Host.gather gather_S50000_S800000x1_S800000_n_0_n_n_0_1_1 (invSqrtDeg i v) (asColumn (wrapNode i))))
    (Host.gather gather_S50000_S800000x1_S800000_n_0_n_n_0_1_1 (invSqrtDeg i v) (asColumn (wrapNode j)))

/-- The propagated features of one relation from its three edge vectors: into row i of a zero matrix, the
    normalised weight times row j of X, summed over the edges. -/
def propagate (X : FVec F S50000x128 .f32) (i j : IVec S800000 32) (v : FVec F S800000 .f32) : FVec F S50000x128 .f32 :=
  Host.scatterAdd scatter_S50000x128_S800000x1_S800000x128_1_0_0_1
    (broadcastInDim S50000x128 ![] bcast_S_S50000x128 (constant (F := F) S_ .f32 0x00000000#32)) (asColumn i)
    (mulf
      (broadcastInDim S800000x128 ![0, 1] bcast_S800000x1_S800000x128_0_1
        (broadcastInDim S800000x1 ![0] bcast_S800000_S800000x1_0 (normVal i j v)))
      (Host.gather gather_S50000x128_S800000x1_S800000x128_1_0_n_n_0_1_1128 X (asColumn (wrapNode j))))

/-- The propagated features of relation o, from the whole edge tables. -/
def relAX (o : Fin 2 → Nat) (hs : S4x800000.Slices o S1x800000) (X : FVec F S50000x128 .f32)
    (rows cols : IVec S4x800000 32) (vals : FVec F S4x800000 .f32) : FVec F S50000x128 .f32 :=
  propagate X (edgeRow o hs rows) (edgeRow o hs cols) (edgeVal o hs vals)

end Cert.ReferenceIdeal.Hand

end
-- ==== Proof.RefSide.lean ====
/-
  The reference's result as whole matrices.

  The reference computes X · W_self, adds the bias repeated down the rows, and then, relation by relation, adds the
  relation's propagated features times plane r of the relation weights. Its host spellings are whole-matrix
  functions: each dot_general is the matrix product, the bias broadcast twice is the bias repeated down the rows,
  and a [1, 128, 128] slice of the relation weights viewed as a matrix is a plane of them. The four propagated-feature
  terms are carried as named values: nothing here looks inside them.
-/
import proofs.«124388_j45827301048843_1_alg».proof.Proof.Gen.ReferenceIdeal.Run
import proofs.«124388_j45827301048843_1_alg».proof.Proof.RelRef
import proofs.«124388_j45827301048843_1_alg».proof.Proof.Layer

noncomputable section

namespace Cert.ReferenceIdeal.Hand

open Idealize.ShloMosaic Idealize.ShloMosaic.TcCoe Idealize.SL.Sem Cert.WholeMat Cert.Layer
open Cert.ReferenceIdeal Cert.ReferenceIdeal.Facts₀ Cert.ReferenceIdeal.Facts

/-- The reference's last operations, over four given propagated-feature matrices A₀ … A₃. -/
def top (X : FVec Ideal S50000x128 .f32) (Wself : FVec Ideal S128x128 .f32) (bias : FVec Ideal S128 .f32)
    (Wrel : FVec Ideal S4x128x128 .f32) (A0 A1 A2 A3 : FVec Ideal S50000x128 .f32) : FVec Ideal S50000x128 .f32 :=
  addf (addf (addf (addf (addf (Host.dotGeneral dot_S50000x128_S128x128_S50000x128_1_0_0_1_n_n none X Wself)
    (broadcastInDim S50000x128 ![0, 1] bcast_S1x128_S50000x128_0_1 (broadcastInDim S1x128 ![1] bcast_S128_S1x128_1
    bias))) (Host.dotGeneral dot_S50000x128_S128x128_S50000x128_1_0_0_1_n_n none A0 (shapeCast _
    (extractStridedSlice S1x128x128 ![0, 0, 0] Wrel slices_S4x128x128_S1x128x128_0_0_0)
    shapeCasts_S1x128x128_S128x128))) (Host.dotGeneral dot_S50000x128_S128x128_S50000x128_1_0_0_1_n_n none A1
    (shapeCast _ (extractStridedSlice S1x128x128 ![1, 0, 0] Wrel slices_S4x128x128_S1x128x128_1_0_0)
    shapeCasts_S1x128x128_S128x128))) (Host.dotGeneral dot_S50000x128_S128x128_S50000x128_1_0_0_1_n_n none A2
    (shapeCast _ (extractStridedSlice S1x128x128 ![2, 0, 0] Wrel slices_S4x128x128_S1x128x128_2_0_0)
    shapeCasts_S1x128x128_S128x128))) (Host.dotGeneral dot_S50000x128_S128x128_S50000x128_1_0_0_1_n_n none A3
    (shapeCast _ (extractStridedSlice S1x128x128 ![3, 0, 0] Wrel slices_S4x128x128_S1x128x128_3_0_0)
    shapeCasts_S1x128x128_S128x128))

/-- The reference's result is those operations over the four relations' propagated features. -/
theorem res_top (m : (ℓ : Loc nD τ sig) → Buf (Elt Ideal) ℓ) (c : Dev nD) :
    Cert.ReferenceIdeal.Value.res_main_v183 (F := Ideal) m c
      = top (m ((c.tc : Thread nD τ).loc main_arg0)) (m ((c.tc : Thread nD τ).loc main_arg5)) (m ((c.tc : Thread nD τ).loc main_arg6)) (m ((c.tc : Thread nD τ).loc main_arg4))
          (relAX ![0, 0] slices_S4x800000_S1x800000_0_0 (m ((c.tc : Thread nD τ).loc main_arg0)) (m ((c.tc : Thread nD τ).loc main_arg1)) (m ((c.tc : Thread nD τ).loc main_arg2)) (m ((c.tc : Thread nD τ).loc main_arg3)))
          (relAX ![1, 0] slices_S4x800000_S1x800000_1_0 (m ((c.tc : Thread nD τ).loc main_arg0)) (m ((c.tc : Thread nD τ).loc main_arg1)) (m ((c.tc : Thread nD τ).loc main_arg2)) (m ((c.tc : Thread nD τ).loc main_arg3)))
          (relAX ![2, 0] slices_S4x800000_S1x800000_2_0 (m ((c.tc : Thread nD τ).loc main_arg0)) (m ((c.tc : Thread nD τ).loc main_arg1)) (m ((c.tc : Thread nD τ).loc main_arg2)) (m ((c.tc : Thread nD τ).loc main_arg3)))
          (relAX ![3, 0] slices_S4x800000_S1x800000_3_0 (m ((c.tc : Thread nD τ).loc main_arg0)) (m ((c.tc : Thread nD τ).loc main_arg1)) (m ((c.tc : Thread nD τ).loc main_arg2)) (m ((c.tc : Thread nD τ).loc main_arg3))) := by
  unfold Cert.ReferenceIdeal.Value.res_main_v183
  rfl

/-- Those operations as whole matrices: products, the bias repeated down the rows, planes of the relation weights,
    added in the reference's order. -/
theorem top_eq (X : FVec Ideal S50000x128 .f32) (Wself : FVec Ideal S128x128 .f32) (bias : FVec Ideal S128 .f32)
    (Wrel : FVec Ideal S4x128x128 .f32) (A0 A1 A2 A3 : FVec Ideal S50000x128 .f32) :
    top X Wself bias Wrel A0 A1 A2 A3
      = refOrder (M := 50000) (mm X Wself) (vecb bias 50000) (mm A0 (plane Wrel 0)) (mm A1 (plane Wrel 1))
          (mm A2 (plane Wrel 2)) (mm A3 (plane Wrel 3)) := by
  unfold top refOrder
  rw [dotGeneral_eq_mm dot_S50000x128_S128x128_S50000x128_1_0_0_1_n_n rfl none X Wself, dotGeneral_eq_mm dot_S50000x128_S128x128_S50000x128_1_0_0_1_n_n rfl none A0, dotGeneral_eq_mm dot_S50000x128_S128x128_S50000x128_1_0_0_1_n_n rfl none A1,
    dotGeneral_eq_mm dot_S50000x128_S128x128_S50000x128_1_0_0_1_n_n rfl none A2, dotGeneral_eq_mm dot_S50000x128_S128x128_S50000x128_1_0_0_1_n_n rfl none A3,
    hostVec_rowb (M := 50000) bias _ rfl _ _ rfl _,
    slice_plane Wrel 0 (by omega), slice_plane Wrel 1 (by omega), slice_plane Wrel 2 (by omega),
    slice_plane Wrel 3 (by omega)]
  rfl

end Cert.ReferenceIdeal.Hand

end
-- ==== Proof.Bridge.lean ====
/-
  The kernel program's output array in the reference's order of summation.

  The output array is the layer on the three arrays the launch finds (Proof/KernelValue.lean). Those arrays are the
  stacks the host operations build (Proof/HostVals.lean): plane 0 of the feature stack is the node features and plane
  r + 1 relation r's propagated features; plane 0 of the weight stack is the self weights and plane r + 1 is plane r
  of the relation weights; the bias row is the bias (Proof/StackPlanes.lean). One relation's propagated features
  are spelt by the same host operations in the two programs, so they are one term. What is left is the order of the
  six summands, which does not matter over the extended reals (Proof/Layer.lean).
-/
import proofs.«124388_j45827301048843_1_alg».proof.Proof.KernelValue
import proofs.«124388_j45827301048843_1_alg».proof.Proof.HostVals
import proofs.«124388_j45827301048843_1_alg».proof.Proof.StackPlanes
import proofs.«124388_j45827301048843_1_alg».proof.Proof.RefSide

noncomputable section

namespace Cert.Bridge

open Idealize.ShloMosaic Idealize.ShloMosaic.TcCoe Idealize.SL.Sem Cert.WholeMat Cert.Layer
open Cert.KernelIdeal Cert.KernelIdeal.Facts₀ Cert.KernelIdeal.Facts Cert.KernelIdeal.Hand

variable (m : (ℓ : Loc nD τ sig) → Buf (Elt Ideal) ℓ) (c : Dev nD)

/-- Plane 0 of the feature stack the launch finds is the node features, -/
theorem src_plane0 : plane (srcAt m c) 0 = (m ((c : Thread nD τ).loc main_arg0)) :=
  (congrArg (fun S : Stack 50000 => plane S 0) (v173_eq m c)).trans (plane_src_0 _ _ _ _ _ _ _ _ _)
/-- and plane r + 1 is relation r's propagated features. -/
theorem src_plane1 : plane (srcAt m c) 1 = (relAX (F := Ideal) ![0, 0] slices_S4x800000_S1x800000_0_0 (m ((c : Thread nD τ).loc main_arg0)) (m ((c : Thread nD τ).loc main_arg1)) (m ((c : Thread nD τ).loc main_arg2)) (m ((c : Thread nD τ).loc main_arg3))) :=
  (congrArg (fun S : Stack 50000 => plane S 1) (v173_eq m c)).trans (plane_src_1 _ _ _ _ _ _ _ _ _)
theorem src_plane2 : plane (srcAt m c) 2 = (relAX (F := Ideal) ![1, 0] slices_S4x800000_S1x800000_1_0 (m ((c : Thread nD τ).loc main_arg0)) (m ((c : Thread nD τ).loc main_arg1)) (m ((c : Thread nD τ).loc main_arg2)) (m ((c : Thread nD τ).loc main_arg3))) :=
  (congrArg (fun S : Stack 50000 => plane S 2) (v173_eq m c)).trans (plane_src_2 _ _ _ _ _ _ _ _ _)
theorem src_plane3 : plane (srcAt m c) 3 = (relAX (F := Ideal) ![2, 0] slices_S4x800000_S1x800000_2_0 (m ((c : Thread nD τ).loc main_arg0)) (m ((c : Thread nD τ).loc main_arg1)) (m ((c : Thread nD τ).loc main_arg2)) (m ((c : Thread nD τ).loc main_arg3))) :=
  (congrArg (fun S : Stack 50000 => plane S 3) (v173_eq m c)).trans (plane_src_3 _ _ _ _ _ _ _ _ _)
theorem src_plane4 : plane (srcAt m c) 4 = (relAX (F := Ideal) ![3, 0] slices_S4x800000_S1x800000_3_0 (m ((c : Thread nD τ).loc main_arg0)) (m ((c : Thread nD τ).loc main_arg1)) (m ((c : Thread nD τ).loc main_arg2)) (m ((c : Thread nD τ).loc main_arg3))) :=
  (congrArg (fun S : Stack 50000 => plane S 4) (v173_eq m c)).trans (plane_src_4 _ _ _ _ _ _ _ _ _)

/-- Plane 0 of the weight stack is the self weights, plane r + 1 is plane r of the relation weights. -/
theorem wgt_plane0 : plane (wgtAt m c) 0 = (m ((c : Thread nD τ).loc main_arg5)) :=
  (congrArg (fun S : Stack 128 => plane S 0) (v174_eq m c)).trans (plane_wgt_0 _ _ _ _ _)
theorem wgt_plane1 : plane (wgtAt m c) 1 = plane ((m ((c : Thread nD τ).loc main_arg4)) : FVec Ideal ⟨3, ![4, 128, 128]⟩ .f32) 0 :=
  (congrArg (fun S : Stack 128 => plane S 1) (v174_eq m c)).trans (plane_wgt_1 _ _ _ _ _)
theorem wgt_plane2 : plane (wgtAt m c) 2 = plane ((m ((c : Thread nD τ).loc main_arg4)) : FVec Ideal ⟨3, ![4, 128, 128]⟩ .f32) 1 :=
  (congrArg (fun S : Stack 128 => plane S 2) (v174_eq m c)).trans (plane_wgt_2 _ _ _ _ _)
theorem wgt_plane3 : plane (wgtAt m c) 3 = plane ((m ((c : Thread nD τ).loc main_arg4)) : FVec Ideal ⟨3, ![4, 128, 128]⟩ .f32) 2 :=
  (congrArg (fun S : Stack 128 => plane S 3) (v174_eq m c)).trans (plane_wgt_3 _ _ _ _ _)
theorem wgt_plane4 : plane (wgtAt m c) 4 = plane ((m ((c : Thread nD τ).loc main_arg4)) : FVec Ideal ⟨3, ![4, 128, 128]⟩ .f32) 3 :=
  (congrArg (fun S : Stack 128 => plane S 4) (v174_eq m c)).trans (plane_wgt_4 _ _ _ _ _)

/-- Row 0 of the bias block repeated down the rows is the bias repeated down the rows. -/
theorem bias_row : rowb (biasAt m c) 0 50000 = vecb ((m ((c : Thread nD τ).loc main_arg6)) : FVec Ideal ⟨1, ![128]⟩ .f32) 50000 :=
  (congrArg (fun B : Mat 1 128 => rowb B 0 50000) (v175_eq m c)).trans (rowb_bias _ _ 50000)

/-- One relation's propagated features are spelt by the same host operations in the two programs. -/
theorem rel_eq (o : Fin 2 → Nat) (hs : S4x800000.Slices o S1x800000)
    (hs' : Cert.ReferenceIdeal.S4x800000.Slices o Cert.ReferenceIdeal.S1x800000)
    (X : FVec Ideal S50000x128 .f32) (rows cols : IVec S4x800000 32) (vals : FVec Ideal S4x800000 .f32) :
    relAX (F := Ideal) o hs X rows cols vals = Cert.ReferenceIdeal.Hand.relAX (F := Ideal) o hs' X rows cols vals := rfl

/-- The kernel program's output array is the reference's sum: the same six matrices, added in the other order. -/
theorem out_eq : outAll m c
    = refOrder (M := 50000) (mm (m ((c : Thread nD τ).loc main_arg0)) (m ((c : Thread nD τ).loc main_arg5))) (vecb ((m ((c : Thread nD τ).loc main_arg6)) : FVec Ideal ⟨1, ![128]⟩ .f32) 50000)
        (mm (Cert.ReferenceIdeal.Hand.relAX (F := Ideal) ![0, 0] Cert.ReferenceIdeal.Facts₀.slices_S4x800000_S1x800000_0_0 (m ((c : Thread nD τ).loc main_arg0)) (m ((c : Thread nD τ).loc main_arg1)) (m ((c : Thread nD τ).loc main_arg2)) (m ((c : Thread nD τ).loc main_arg3))) (plane ((m ((c : Thread nD τ).loc main_arg4)) : FVec Ideal ⟨3, ![4, 128, 128]⟩ .f32) 0))
        (mm (Cert.ReferenceIdeal.Hand.relAX (F := Ideal) ![1, 0] Cert.ReferenceIdeal.Facts₀.slices_S4x800000_S1x800000_1_0 (m ((c : Thread nD τ).loc main_arg0)) (m ((c : Thread nD τ).loc main_arg1)) (m ((c : Thread nD τ).loc main_arg2)) (m ((c : Thread nD τ).loc main_arg3))) (plane ((m ((c : Thread nD τ).loc main_arg4)) : FVec Ideal ⟨3, ![4, 128, 128]⟩ .f32) 1))
        (mm (Cert.ReferenceIdeal.Hand.relAX (F := Ideal) ![2, 0] Cert.ReferenceIdeal.Facts₀.slices_S4x800000_S1x800000_2_0 (m ((c : Thread nD τ).loc main_arg0)) (m ((c : Thread nD τ).loc main_arg1)) (m ((c : Thread nD τ).loc main_arg2)) (m ((c : Thread nD τ).loc main_arg3))) (plane ((m ((c : Thread nD τ).loc main_arg4)) : FVec Ideal ⟨3, ![4, 128, 128]⟩ .f32) 2))
        (mm (Cert.ReferenceIdeal.Hand.relAX (F := Ideal) ![3, 0] Cert.ReferenceIdeal.Facts₀.slices_S4x800000_S1x800000_3_0 (m ((c : Thread nD τ).loc main_arg0)) (m ((c : Thread nD τ).loc main_arg1)) (m ((c : Thread nD τ).loc main_arg2)) (m ((c : Thread nD τ).loc main_arg3))) (plane ((m ((c : Thread nD τ).loc main_arg4)) : FVec Ideal ⟨3, ![4, 128, 128]⟩ .f32) 3)) := by
  unfold outAll stackLayer
  rw [src_plane0, src_plane1, src_plane2, src_plane3, src_plane4, wgt_plane0, wgt_plane1, wgt_plane2, wgt_plane3,
    wgt_plane4, bias_row, rel_eq _ _ Cert.ReferenceIdeal.Facts₀.slices_S4x800000_S1x800000_0_0,
    rel_eq _ _ Cert.ReferenceIdeal.Facts₀.slices_S4x800000_S1x800000_1_0,
    rel_eq _ _ Cert.ReferenceIdeal.Facts₀.slices_S4x800000_S1x800000_2_0,
    rel_eq _ _ Cert.ReferenceIdeal.Facts₀.slices_S4x800000_S1x800000_3_0]
  exact accOrder_eq_refOrder _ _ _ _ _ _

end Cert.Bridge

end
-- ==== Proof.lean ====
/-
  The certificate of the multi-relation graph-convolution layer: out = X · W_self + bias + Σ_r norm(A_r) · X · W_rel[r].

  The kernel program computes on the host, relation by relation, the propagated features norm(A_r) · X from the
  relation's edge list, stacks the node features and the four propagated features into five planes, stacks the self
  weights and the relation weights likewise, and launches one kernel over 25 blocks of 2000 rows; at each block the
  kernel adds, onto zero, the five products of a feature plane's rows with the matching weight plane, then the bias
  row, and stores the block. The reference computes the same propagated features by the same host operations, and
  adds X · W_self, the bias, and the four products in that order.

  Frames. Each kernel program is nine stretches of host operations and one launch; no host operation and no store of
  the launch writes an argument array (Proof/FrameIdeal.lean, Proof/FrameBits.lean). The reference is host operations
  only; its frame is its run with the result dropped.
  Preservation. The idealised kernel program is the kernel program's own text read over the extended reals: nothing
  was rewritten, so there is nothing to preserve.
  Equality of results at the ideal values. The output array of the kernel program is the layer on the three arrays
  the launch finds (Proof/KernelValue.lean, from what the body stores: Proof/BodyValue.lean); those arrays are the stacks the
  host operations build (Proof/HostVals.lean), of which plane 0 of the feature stack is X, plane r + 1 is relation
  r's propagated features, plane 0 of the weight stack is W_self, plane r + 1 is plane r of W_rel, and the bias row
  is the bias (Proof/StackPlanes.lean, joined in Proof/Bridge.lean). The reference's result is the same six
  matrices added in another order (Proof/RefSide.lean), and the two orders agree because addition of extended reals
  is commutative and associative with no finiteness needed (Proof/Layer.lean). The propagated features are the same
  term in both programs (Proof/RelKer.lean, Proof/RelRef.lean), so nothing is ever read inside a gather or a
  scatter-add, and the precondition (finite inputs) is not used.
-/
import proofs.«124388_j45827301048843_1_alg».proof.Defs
import proofs.«124388_j45827301048843_1_alg».proof.Proof.Gen.Kernel
import proofs.«124388_j45827301048843_1_alg».proof.Proof.Gen.KernelIdeal
import proofs.«124388_j45827301048843_1_alg».proof.Proof.Gen.ReferenceIdeal
import proofs.«124388_j45827301048843_1_alg».proof.Proof.Gen.Pre_finite_inputs
import proofs.«124388_j45827301048843_1_alg».proof.Proof.Gen.ReferenceIdeal.Run
import proofs.«124388_j45827301048843_1_alg».proof.Proof.FrameBits
import proofs.«124388_j45827301048843_1_alg».proof.Proof.FrameIdeal
import proofs.«124388_j45827301048843_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs to its end and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten between the kernel program and its reading over the extended reals. -/
theorem preserves : Cert.preserves_Kernel_KernelIdeal := trivial

/-- From memories that agree on the arguments the two programs end with the same result: the kernel program's
    output array is the layer on the arrays its launch finds, which is the reference's sum in another order. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.outAll m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.res_top, Cert.ReferenceIdeal.Hand.top_eq, (hagree c).1, (hagree c).2.1, (hagree c).2.2.1,
    (hagree c).2.2.2.1, (hagree c).2.2.2.2.1, (hagree c).2.2.2.2.2.1, (hagree c).2.2.2.2.2.2]
  exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
